-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S_ : Shape := ⟨0, ![]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel

variable [Facts]

def fn {F : FTy → Type} [FloatOps F] (main_arg0 : FVec F S4x2048x32000 .f32) (main_arg1 : IVec S4x2048 32) (main_arg2 : IVec S4x2048 32) (main_arg3 : IVec S4x2048 32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  main_v3
-- ==== Kernel.lean ====
abbrev S4x2048x32000 : Shape := ⟨3, ![4, 2048, 32000]⟩
abbrev S4x2048 : Shape := ⟨2, ![4, 2048]⟩
abbrev S_ : Shape := ⟨0, ![]⟩
abbrev S4x1 : Shape := ⟨2, ![4, 1]⟩
abbrev S4x2047 : Shape := ⟨2, ![4, 2047]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S1x128x32000 : Shape := ⟨3, ![1, 128, 32000]⟩
abbrev S1x128x1 : Shape := ⟨3, ![1, 128, 1]⟩
abbrev S128x32000 : Shape := ⟨2, ![128, 32000]⟩
abbrev S128 : Shape := ⟨1, ![128]⟩
abbrev S128x1 : Shape := ⟨2, ![128, 1]⟩
abbrev S4 : Shape := ⟨1, ![4]⟩
abbrev S4x17 : Shape := ⟨2, ![4, 17]⟩
abbrev S4x2047x1 : Shape := ⟨3, ![4, 2047, 1]⟩
abbrev S4x2047x2 : Shape := ⟨3, ![4, 2047, 2]⟩
abbrev S4x16 : Shape := ⟨2, ![4, 16]⟩

abbrev nBuf : Space → Nat
  | .hbm => 128
  | .vmem => 6
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .i32⟩
  | .hbm, ⟨2, _⟩ => ⟨S4x2048, .i32⟩
  | .hbm, ⟨3, _⟩ => ⟨S4x2048, .i32⟩
  | .hbm, ⟨4, _⟩ => ⟨S_, .i32⟩
  | .hbm, ⟨5, _⟩ => ⟨S4x1, .i32⟩
  | .hbm, ⟨6, _⟩ => ⟨S4x2047, .i32⟩
  | .hbm, ⟨7, _⟩ => ⟨S4x2048, .i32⟩
  | .hbm, ⟨8, _⟩ => ⟨S4x2048x1, .i32⟩
  | .hbm, ⟨9, _⟩ => ⟨S_, .i32⟩
  | .hbm, ⟨10, _⟩ => ⟨S4x2048x1, .i32⟩
  | .hbm, ⟨11, _⟩ => ⟨S4x2048x1, .i1⟩
  | .hbm, ⟨12, _⟩ => ⟨S_, .i32⟩
  | .hbm, ⟨13, _⟩ => ⟨S4x2048x1, .i32⟩
  | .hbm, ⟨14, _⟩ => ⟨S4x2048x1, .i32⟩
  | .hbm, ⟨15, _⟩ => ⟨S4x2048x1, .i32⟩
  | .hbm, ⟨16, _⟩ => ⟨S4x2048x1x1, .i32⟩
  | .hbm, ⟨17, _⟩ => ⟨S1, .i32⟩
  | .hbm, ⟨18, _⟩ => ⟨S_, .i32⟩
  | .hbm, ⟨19, _⟩ => ⟨S4x2048x1x1, .i32⟩
  | .hbm, ⟨20, _⟩ => ⟨S4x2048x1x1, .i1⟩
  | .hbm, ⟨21, _⟩ => ⟨S1x1x1x1, .i32⟩
  | .hbm, ⟨22, _⟩ => ⟨S4x2048x1x1, .i32⟩
  | .hbm, ⟨23, _⟩ => ⟨S4x2048x1x1, .i1⟩
  | .hbm, ⟨24, _⟩ => ⟨S4x2048x1x1, .i1⟩
  | .hbm, ⟨25, _⟩ => ⟨S_, .i1⟩
  | .hbm, ⟨26, _⟩ => ⟨S4x2048x1, .i1⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048, .f32⟩
  | .hbm, ⟨33, _⟩ => ⟨S4x2047, .f32⟩
  | .hbm, ⟨34, _⟩ => ⟨S4x2047, .i32⟩
  | .hbm, ⟨35, _⟩ => ⟨S4x2047, .f32⟩
  | .hbm, ⟨36, _⟩ => ⟨S4x2047, .f32⟩
  | .hbm, ⟨37, _⟩ => ⟨S4x2047, .i32⟩
  | .hbm, ⟨38, _⟩ => ⟨S4, .i32⟩
  | .hbm, ⟨39, _⟩ => ⟨S4x1, .i32⟩
  | .hbm, ⟨40, _⟩ => ⟨S4x2047, .i32⟩
  | .hbm, ⟨41, _⟩ => ⟨S_, .f32⟩
  | .hbm, ⟨42, _⟩ => ⟨S4x17, .f32⟩
  | .hbm, ⟨43, _⟩ => ⟨S_, .i32⟩
  | .hbm, ⟨44, _⟩ => ⟨S4x2047, .i32⟩
  | .hbm, ⟨45, _⟩ => ⟨S4x2047, .i1⟩
  | .hbm, ⟨46, _⟩ => ⟨S_, .i32⟩
  | .hbm, ⟨47, _⟩ => ⟨S4x2047, .i32⟩
  | .hbm, ⟨48, _⟩ => ⟨S4x2047, .i32⟩
  | .hbm, ⟨49, _⟩ => ⟨S4x2047, .i32⟩
  | .hbm, ⟨50, _⟩ => ⟨S_, .i32⟩
  | .hbm, ⟨51, _⟩ => ⟨S4x2047, .i32⟩
  | .hbm, ⟨52, _⟩ => ⟨S4x2047, .i1⟩
  | .hbm, ⟨53, _⟩ => ⟨S_, .i32⟩
  | .hbm, ⟨54, _⟩ => ⟨S4x2047, .i32⟩
  | .hbm, ⟨55, _⟩ => ⟨S4x2047, .i32⟩
  | .hbm, ⟨56, _⟩ => ⟨S4x2047, .i32⟩
  | .hbm, ⟨57, _⟩ => ⟨S4x2047x1, .i32⟩
  | .hbm, ⟨58, _⟩ => ⟨S4x2047x1, .i32⟩
  | .hbm, ⟨59, _⟩ => ⟨S4x2047x2, .i32⟩
  | .hbm, ⟨60, _⟩ => ⟨S4x17, .f32⟩
  | .hbm, ⟨61, _⟩ => ⟨S_, .f32⟩
  | .hbm, ⟨62, _⟩ => ⟨S4x17, .f32⟩
  | .hbm, ⟨63, _⟩ => ⟨S_, .i32⟩
  | .hbm, ⟨64, _⟩ => ⟨S4x2047, .i32⟩
  | .hbm, ⟨65, _⟩ => ⟨S4x2047, .i1⟩
  | .hbm, ⟨66, _⟩ => ⟨S_, .i32⟩
  | .hbm, ⟨67, _⟩ => ⟨S4x2047, .i32⟩
  | .hbm, ⟨68, _⟩ => ⟨S4x2047, .i32⟩
  | .hbm, ⟨69, _⟩ => ⟨S4x2047, .i32⟩
  | .hbm, ⟨70, _⟩ => ⟨S_, .i32⟩
  | .hbm, ⟨71, _⟩ => ⟨S4x2047, .i32⟩
  | .hbm, ⟨72, _⟩ => ⟨S4x2047, .i1⟩
  | .hbm, ⟨73, _⟩ => ⟨S_, .i32⟩
  | .hbm, ⟨74, _⟩ => ⟨S4x2047, .i32⟩
  | .hbm, ⟨75, _⟩ => ⟨S4x2047, .i32⟩
  | .hbm, ⟨76, _⟩ => ⟨S4x2047, .i32⟩
  | .hbm, ⟨77, _⟩ => ⟨S4x2047x1, .i32⟩
  | .hbm, ⟨78, _⟩ => ⟨S4x2047x1, .i32⟩
  | .hbm, ⟨79, _⟩ => ⟨S4x2047x2, .i32⟩
  | .hbm, ⟨80, _⟩ => ⟨S4x17, .f32⟩
  | .hbm, ⟨81, _⟩ => ⟨S_, .f32⟩
  | .hbm, ⟨82, _⟩ => ⟨S4x17, .f32⟩
  | .hbm, ⟨83, _⟩ => ⟨S4x17, .i1⟩
  | .hbm, ⟨84, _⟩ => ⟨S_, .f32⟩
  | .hbm, ⟨85, _⟩ => ⟨S4x17, .f32⟩
  | .hbm, ⟨86, _⟩ => ⟨S4x17, .f32⟩
  | .hbm, ⟨87, _⟩ => ⟨S4x17, .f32⟩
  | .hbm, ⟨88, _⟩ => ⟨S_, .f32⟩
  | .hbm, ⟨89, _⟩ => ⟨S_, .f32⟩
  | .hbm, ⟨90, _⟩ => ⟨S4x17, .f32⟩
  | .hbm, ⟨91, _⟩ => ⟨S4x17, .f32⟩
  | .hbm, ⟨92, _⟩ => ⟨S4x16, .f32⟩
  | .hbm, ⟨93, _⟩ => ⟨S_, .f32⟩
  | .hbm, ⟨94, _⟩ => ⟨S4, .f32⟩
  | .hbm, ⟨95, _⟩ => ⟨S4x16, .f32⟩
  | .hbm, ⟨96, _⟩ => ⟨S_, .f32⟩
  | .hbm, ⟨97, _⟩ => ⟨S4x16, .f32⟩
  | .hbm, ⟨98, _⟩ => ⟨S4x16, .i1⟩
  | .hbm, ⟨99, _⟩ => ⟨S_, .i1⟩
  | .hbm, ⟨100, _⟩ => ⟨S4, .i1⟩
  | .hbm, ⟨101, _⟩ => ⟨S_, .f32⟩
  | .hbm, ⟨102, _⟩ => ⟨S4, .f32⟩
  | .hbm, ⟨103, _⟩ => ⟨S_, .f32⟩
  | .hbm, ⟨104, _⟩ => ⟨S4, .f32⟩
  | .hbm, ⟨105, _⟩ => ⟨S_, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S_, .f32⟩
  | .hbm, ⟨110, _⟩ => ⟨S4, .f32⟩
  | .hbm, ⟨111, _⟩ => ⟨S4, .i1⟩
  | .hbm, ⟨112, _⟩ => ⟨S4, .f32⟩
  | .hbm, ⟨113, _⟩ => ⟨S4, .f32⟩
  | .hbm, ⟨114, _⟩ => ⟨S_, .f32⟩
  | .hbm, ⟨115, _⟩ => ⟨S_, .f32⟩
  | .hbm, ⟨116, _⟩ => ⟨S4, .f32⟩
  | .hbm, ⟨117, _⟩ => ⟨S4, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .i1⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | .local _ .vmem, ⟨0, _⟩ => ⟨S1x128x32000, .f32⟩
  | .local _ .vmem, ⟨1, _⟩ => ⟨S1x128x32000, .f32⟩
  | .local _ .vmem, ⟨2, _⟩ => ⟨S1x128x1, .f32⟩
  | .local _ .vmem, ⟨3, _⟩ => ⟨S1x128x1, .f32⟩
  | .local _ .vmem, ⟨4, _⟩ => ⟨S1x128x1, .f32⟩
  | .local _ .vmem, ⟨5, _⟩ => ⟨S1x128x1, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_c_0 : Ref sig .tc := ⟨.hbm, 43, rfl⟩
abbrev main_v16 : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_c_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_cst_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_call1_v0 : Ref sig .tc := ⟨.hbm, 89, rfl⟩
abbrev main_call1_v1 : Ref sig .tc := ⟨.hbm, 90, rfl⟩
abbrev main_v50 : Ref sig .tc := ⟨.hbm, 91, rfl⟩
abbrev main_v51 : Ref sig .tc := ⟨.hbm, 92, rfl⟩
abbrev main_cst_12 : Ref sig .tc := ⟨.hbm, 93, rfl⟩
abbrev main_v52 : Ref sig .tc := ⟨.hbm, 94, rfl⟩
abbrev main_v53 : Ref sig .tc := ⟨.hbm, 95, rfl⟩
abbrev main_cst_13 : Ref sig .tc := ⟨.hbm, 96, rfl⟩
abbrev main_v54 : Ref sig .tc := ⟨.hbm, 97, rfl⟩
abbrev main_v55 : Ref sig .tc := ⟨.hbm, 98, rfl⟩
abbrev main_c_14 : Ref sig .tc := ⟨.hbm, 99, rfl⟩
abbrev main_v56 : Ref sig .tc := ⟨.hbm, 100, rfl⟩
abbrev main_cst_15 : Ref sig .tc := ⟨.hbm, 101, rfl⟩
abbrev main_v57 : Ref sig .tc := ⟨.hbm, 102, rfl⟩
abbrev main_cst_16 : Ref sig .tc := ⟨.hbm, 103, rfl⟩
abbrev main_v58 : Ref sig .tc := ⟨.hbm, 104, rfl⟩
abbrev main_cst_17 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_18 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_20 : Ref sig .tc := ⟨.hbm, 118, rfl⟩
abbrev main_v69 : Ref sig .tc := ⟨.hbm, 119, rfl⟩
abbrev main_cst_21 : Ref sig .tc := ⟨.hbm, 120, rfl⟩
abbrev main_v70 : Ref sig .tc := ⟨.hbm, 121, rfl⟩
abbrev main_cst_22 : Ref sig .tc := ⟨.hbm, 122, rfl⟩
abbrev main_v71 : Ref sig .tc := ⟨.hbm, 123, rfl⟩
abbrev main_v72 : Ref sig .tc := ⟨.hbm, 124, rfl⟩
abbrev main_cst_23 : Ref sig .tc := ⟨.hbm, 125, rfl⟩
abbrev main_call3_v0 : Ref sig .tc := ⟨.hbm, 126, rfl⟩
abbrev main_v73 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4x1 : S_.BroadcastsInDim S4x1 (![] : Fin 0 → Fin S4x1.rank)
  slices_S4x2048_S4x2047_0_1 : S4x2048.Slices ![0, 1] S4x2047
  concatenates_S4x2047_S4x1_S4x2048_d1 : Shape.Concatenates [S4x2047, S4x1] S4x2048 1
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  h_S_ : 0 < S_.numel
  inb_S1x128x32000_S1x128x32000_0_0_0 : ∀ a, (![0, 0, 0] : Fin 3 → Nat) a + S1x128x32000.size a ≤ S1x128x32000.size a
  h_S1x128x32000 : 0 < S1x128x32000.numel
  shapeCasts_S1x128x32000_S128x32000 : S1x128x32000.ShapeCasts S128x32000
  reduces_S128x32000_S128 : S128x32000.Reduces [1] S128
  shapeCasts_S128_S128x1 : S128.ShapeCasts S128x1
  broadcasts_S128x1_S128x32000 : S128x1.Broadcasts S128x32000
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S4x2048x1_S4x2048 : S4x2048x1.ShapeCasts S4x2048
  slices_S4x2048_S4x2047_0_0 : S4x2048.Slices ![0, 0] S4x2047
  bcast_S4_S4x1_0 : S4.BroadcastsInDim S4x1 (![0] : Fin 1 → Fin S4x1.rank)
  bcast_S4x1_S4x2047_0_1 : S4x1.BroadcastsInDim S4x2047 (![0, 1] : Fin 2 → Fin S4x2047.rank)
  bcast_S_S4x17 : S_.BroadcastsInDim S4x17 (![] : Fin 0 → Fin S4x17.rank)
  bcast_S_S4x2047 : S_.BroadcastsInDim S4x2047 (![] : Fin 0 → Fin S4x2047.rank)
  bcast_S4x2047_S4x2047x1_0_1 : S4x2047.BroadcastsInDim S4x2047x1 (![0, 1] : Fin 2 → Fin S4x2047x1.rank)
  concatenates_S4x2047x1_S4x2047x1_S4x2047x2_d2 : Shape.Concatenates [S4x2047x1, S4x2047x1] S4x2047x2 2
  slices_S4x17_S4x16_0_1 : S4x17.Slices ![0, 1] S4x16
  reducesTo_S4x16_S4_d1 : S4x16.ReducesTo [1] S4
  bcast_S_S4x16 : S_.BroadcastsInDim S4x16 (![] : Fin 0 → Fin S4x16.rank)
  reducesTo_S4x2047_S4_d1 : S4x2047.ReducesTo [1] S4
  bcast_S_S4 : S_.BroadcastsInDim S4 (![] : Fin 0 → Fin S4.rank)
  reducesTo_S4_S_d0 : S4.ReducesTo [0] S_
  gather_S4x2048x32000_S4x2048x1x1_S4x2048x1_n_2_01_01_2_3_111_wf : GatherDims.WF S4x2048x32000 S4x2048x1x1 S4x2048x1 [] [2] [0, 1] [2] [0, 1] 3 ![1, 1, 1]
  scatter_S4x17_S4x2047x2_S4x2047_n_01_01_2_wf : ScatterDims.WF S4x17 S4x2047x2 S4x2047 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32000.size a ≤ S4x2048x32000.size a
  hwx0_0 : ∀ i : grid0.Coords, EltTy.bits .f32 = 32 ∨ (Rect.block (s := S4x2048x32000) S1x128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S4x2048x1.size a
  hwx0_1 : ∀ i : grid0.Coords, EltTy.bits .f32 = 32 ∨ (Rect.block (s := S4x2048x1) S1x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S4x2048x1.size a
  hwx0_2 : ∀ i : grid0.Coords, EltTy.bits .f32 = 32 ∨ (Rect.block (s := S4x2048x1) S1x128x1.size (cc0_transform_2 i) (hinb0_2 i)).WholeWords (EltTy.packing .f32)

variable [Facts₀]

def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf
def scatter_S4x17_S4x2047x2_S4x2047_n_01_01_2 : ScatterDims S4x17 S4x2047x2 S4x2047 where
  updateWindowDims := []
  insertedWindowDims := [0, 1]
  scatterDimsToOperandDims := [0, 1]
  indexVectorDim := 2
  wf := scatter_S4x17_S4x2047x2_S4x2047_n_01_01_2_wf

abbrev win0_0 : Pipeline.Window sig grid0 :=
  Pipeline.Window.ofSpec (Memref.whole main_arg0) S1x128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S4x2047x32000 : Shape := ⟨3, ![4, 2047, 32000]⟩
abbrev S4x2047 : Shape := ⟨2, ![4, 2047]⟩
abbrev S_ : Shape := ⟨0, ![]⟩
abbrev S4x2047x1 : Shape := ⟨3, ![4, 2047, 1]⟩
abbrev S4x2047x1x1 : Shape := ⟨4, ![4, 2047, 1, 1]⟩
abbrev S1 : Shape := ⟨1, ![1]⟩
abbrev S1x1x1x1 : Shape := ⟨4, ![1, 1, 1, 1]⟩
abbrev S4 : Shape := ⟨1, ![4]⟩
abbrev S4x1 : Shape := ⟨2, ![4, 1]⟩
abbrev S4x17 : Shape := ⟨2, ![4, 17]⟩
abbrev S4x2047x2 : Shape := ⟨3, ![4, 2047, 2]⟩
abbrev S4x16 : Shape := ⟨2, ![4, 16]⟩

abbrev nBuf : Space → Nat
  | .hbm => 140
  | .vmem => 0
  | .smem => 0
  | _ => 0

abbrev hbmTy0_0 (i : Nat) : BufTy := match i % 128 with
  | 0 => ⟨S4x2048x32000, .f32⟩
  | 1 => ⟨S4x2048, .i32⟩
  | 2 => ⟨S4x2048, .i32⟩
  | 3 => ⟨S4x2048, .i32⟩
  | 4 => ⟨S4x2047x32000, .f32⟩
  | 5 => ⟨S4x2047, .i32⟩
  | 6 => ⟨S4x2047, .i32⟩
  | 7 => ⟨S4x2047, .f32⟩
  | 8 => ⟨S4x2047, .i32⟩
  | 9 => ⟨S_, .f32⟩
  | 10 => ⟨S4x2047, .f32⟩
  | 11 => ⟨S_, .f32⟩
  | 12 => ⟨S4x2047, .f32⟩
  | 13 => ⟨S4x2047, .f32⟩
  | 14 => ⟨S4x2047x1, .f32⟩
  | 15 => ⟨S4x2047x32000, .f32⟩
  | 16 => ⟨S4x2047x32000, .f32⟩
  | 17 => ⟨S4x2047x32000, .f32⟩
  | 18 => ⟨S_, .f32⟩
  | 19 => ⟨S4x2047, .f32⟩
  | 20 => ⟨S4x2047x1, .f32⟩
  | 21 => ⟨S4x2047x1, .f32⟩
  | 22 => ⟨S4x2047x32000, .f32⟩
  | 23 => ⟨S4x2047x32000, .f32⟩
  | 24 => ⟨S4x2047x1, .i32⟩
  | 25 => ⟨S_, .i32⟩
  | 26 => ⟨S4x2047x1, .i32⟩
  | 27 => ⟨S4x2047x1, .i1⟩
  | 28 => ⟨S_, .i32⟩
  | 29 => ⟨S4x2047x1, .i32⟩
  | 30 => ⟨S4x2047x1, .i32⟩
  | 31 => ⟨S4x2047x1, .i32⟩
  | 32 => ⟨S4x2047x1x1, .i32⟩
  | 33 => ⟨S1, .i32⟩
  | 34 => ⟨S_, .i32⟩
  | 35 => ⟨S4x2047x1x1, .i32⟩
  | 36 => ⟨S4x2047x1x1, .i1⟩
  | 37 => ⟨S1x1x1x1, .i32⟩
  | 38 => ⟨S4x2047x1x1, .i32⟩
  | 39 => ⟨S4x2047x1x1, .i1⟩
  | 40 => ⟨S4x2047x1x1, .i1⟩
  | 41 => ⟨S_, .i1⟩
  | 42 => ⟨S4x2047x1, .i1⟩
  | 43 => ⟨S4x2047x1, .f32⟩
  | 44 => ⟨S_, .f32⟩
  | 45 => ⟨S4x2047x1, .f32⟩
  | 46 => ⟨S4x2047x1, .f32⟩
  | 47 => ⟨S4x2047, .f32⟩
  | 48 => ⟨S4x2047, .f32⟩
  | 49 => ⟨S4x2047, .f32⟩
  | 50 => ⟨S4, .i32⟩
  | 51 => ⟨S4x1, .i32⟩
  | 52 => ⟨S4x2047, .i32⟩
  | 53 => ⟨S_, .f32⟩
  | 54 => ⟨S4x17, .f32⟩
  | 55 => ⟨S_, .i32⟩
  | 56 => ⟨S4x2047, .i32⟩
  | 57 => ⟨S4x2047, .i1⟩
  | 58 => ⟨S_, .i32⟩
  | 59 => ⟨S4x2047, .i32⟩
  | 60 => ⟨S4x2047, .i32⟩
  | 61 => ⟨S4x2047, .i32⟩
  | 62 => ⟨S_, .i32⟩
  | 63 => ⟨S4x2047, .i32⟩
  | 64 => ⟨S4x2047, .i1⟩
  | 65 => ⟨S_, .i32⟩
  | 66 => ⟨S4x2047, .i32⟩
  | 67 => ⟨S4x2047, .i32⟩
  | 68 => ⟨S4x2047, .i32⟩
  | 69 => ⟨S4x2047x1, .i32⟩
  | 70 => ⟨S4x2047x1, .i32⟩
  | 71 => ⟨S4x2047x2, .i32⟩
  | 72 => ⟨S4x17, .f32⟩
  | 73 => ⟨S_, .f32⟩
  | 74 => ⟨S4x17, .f32⟩
  | 75 => ⟨S_, .i32⟩
  | 76 => ⟨S4x2047, .i32⟩
  | 77 => ⟨S4x2047, .i1⟩
  | 78 => ⟨S_, .i32⟩
  | 79 => ⟨S4x2047, .i32⟩
  | 80 => ⟨S4x2047, .i32⟩
  | 81 => ⟨S4x2047, .i32⟩
  | 82 => ⟨S_, .i32⟩
  | 83 => ⟨S4x2047, .i32⟩
  | 84 => ⟨S4x2047, .i1⟩
  | 85 => ⟨S_, .i32⟩
  | 86 => ⟨S4x2047, .i32⟩
  | 87 => ⟨S4x2047, .i32⟩
  | 88 => ⟨S4x2047, .i32⟩
  | 89 => ⟨S4x2047x1, .i32⟩
  | 90 => ⟨S4x2047x1, .i32⟩
  | 91 => ⟨S4x2047x2, .i32⟩
  | 92 => ⟨S4x17, .f32⟩
  | 93 => ⟨S_, .f32⟩
  | 94 => ⟨S4x17, .f32⟩
  | 95 => ⟨S4x17, .i1⟩
  | 96 => ⟨S_, .f32⟩
  | 97 => ⟨S4x17, .f32⟩
  | 98 => ⟨S4x17, .f32⟩
  | 99 => ⟨S4x17, .f32⟩
  | 100 => ⟨S_, .f32⟩
  | 101 => ⟨S_, .f32⟩
  | 102 => ⟨S4x17, .f32⟩
  | 103 => ⟨S4x17, .f32⟩
  | 104 => ⟨S4x16, .f32⟩
  | 105 => ⟨S_, .f32⟩
  | 106 => ⟨S4, .f32⟩
  | 107 => ⟨S4x16, .f32⟩
  | 108 => ⟨S_, .f32⟩
  | 109 => ⟨S4x16, .f32⟩
  | 110 => ⟨S4x16, .i1⟩
  | 111 => ⟨S_, .i1⟩
  | 112 => ⟨S4, .i1⟩
  | 113 => ⟨S_, .f32⟩
  | 114 => ⟨S4, .f32⟩
  | 115 => ⟨S_, .f32⟩
  | 116 => ⟨S4, .f32⟩
  | 117 => ⟨S_, .f32⟩
  | 118 => ⟨S4, .f32⟩
  | 119 => ⟨S4, .f32⟩
  | 120 => ⟨S4, .f32⟩
  | 121 => ⟨S_, .f32⟩
  | 122 => ⟨S4, .f32⟩
  | 123 => ⟨S4, .i1⟩
  | 124 => ⟨S4, .f32⟩
  | 125 => ⟨S4, .f32⟩
  | 126 => ⟨S_, .f32⟩
  | 127 => ⟨S_, .f32⟩
  | _ => ⟨S4x2048x32000, .f32⟩

abbrev hbmTy0_1 (i : Nat) : BufTy := match i % 128 with
  | 0 => ⟨S4, .f32⟩
  | 1 => ⟨S4, .f32⟩
  | 2 => ⟨S_, .f32⟩
  | 3 => ⟨S_, .f32⟩
  | 4 => ⟨S_, .f32⟩
  | 5 => ⟨S_, .i1⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S4x2048x32000, .f32⟩

abbrev hbmTy (i : Nat) : BufTy := match i / 128 with
  | 0 => hbmTy0_0 i
  | 1 => hbmTy0_1 i
  | _ => ⟨S4x2048x32000, .f32⟩

abbrev bufTy : (tb : Table) → Fin (tcTables nBuf tb) → BufTy
  | .hbm, ⟨i, _⟩ => hbmTy i
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_c : Ref sig .tc := ⟨.hbm, 55, rfl⟩
abbrev main_v15 : Ref sig .tc := ⟨.hbm, 56, rfl⟩
abbrev main_v16 : Ref sig .tc := ⟨.hbm, 57, rfl⟩
abbrev main_c_0 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_1 : Ref sig .tc := ⟨.hbm, 62, rfl⟩
abbrev main_v20 : Ref sig .tc := ⟨.hbm, 63, rfl⟩
abbrev main_v21 : Ref sig .tc := ⟨.hbm, 64, rfl⟩
abbrev main_c_2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_c_4 : Ref sig .tc := ⟨.hbm, 75, rfl⟩
abbrev main_v30 : Ref sig .tc := ⟨.hbm, 76, rfl⟩
abbrev main_v31 : Ref sig .tc := ⟨.hbm, 77, rfl⟩
abbrev main_c_5 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_c_6 : Ref sig .tc := ⟨.hbm, 82, rfl⟩
abbrev main_v35 : Ref sig .tc := ⟨.hbm, 83, rfl⟩
abbrev main_v36 : Ref sig .tc := ⟨.hbm, 84, rfl⟩
abbrev main_c_7 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_8 : Ref sig .tc := ⟨.hbm, 93, rfl⟩
abbrev main_v44 : Ref sig .tc := ⟨.hbm, 94, rfl⟩
abbrev main_v45 : Ref sig .tc := ⟨.hbm, 95, rfl⟩
abbrev main_cst_9 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_10 : Ref sig .tc := ⟨.hbm, 100, rfl⟩
abbrev main_call2_v0 : Ref sig .tc := ⟨.hbm, 101, rfl⟩
abbrev main_call2_v1 : Ref sig .tc := ⟨.hbm, 102, rfl⟩
abbrev main_v49 : Ref sig .tc := ⟨.hbm, 103, rfl⟩
abbrev main_v50 : Ref sig .tc := ⟨.hbm, 104, rfl⟩
abbrev main_cst_11 : Ref sig .tc := ⟨.hbm, 105, rfl⟩
abbrev main_v51 : Ref sig .tc := ⟨.hbm, 106, rfl⟩
abbrev main_v52 : Ref sig .tc := ⟨.hbm, 107, rfl⟩
abbrev main_cst_12 : Ref sig .tc := ⟨.hbm, 108, rfl⟩
abbrev main_v53 : Ref sig .tc := ⟨.hbm, 109, rfl⟩
abbrev main_v54 : Ref sig .tc := ⟨.hbm, 110, rfl⟩
abbrev main_c_13 : Ref sig .tc := ⟨.hbm, 111, rfl⟩
abbrev main_v55 : Ref sig .tc := ⟨.hbm, 112, rfl⟩
abbrev main_cst_14 : Ref sig .tc := ⟨.hbm, 113, rfl⟩
abbrev main_v56 : Ref sig .tc := ⟨.hbm, 114, rfl⟩
abbrev main_cst_15 : Ref sig .tc := ⟨.hbm, 115, rfl⟩
abbrev main_v57 : Ref sig .tc := ⟨.hbm, 116, rfl⟩
abbrev main_cst_16 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst_17 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_18 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_19 : Ref sig .tc := ⟨.hbm, 130, rfl⟩
abbrev main_v68 : Ref sig .tc := ⟨.hbm, 131, rfl⟩
abbrev main_cst_20 : Ref sig .tc := ⟨.hbm, 132, rfl⟩
abbrev main_v69 : Ref sig .tc := ⟨.hbm, 133, rfl⟩
abbrev main_cst_21 : Ref sig .tc := ⟨.hbm, 134, rfl⟩
abbrev main_v70 : Ref sig .tc := ⟨.hbm, 135, rfl⟩
abbrev main_v71 : Ref sig .tc := ⟨.hbm, 136, rfl⟩
abbrev main_cst_22 : Ref sig .tc := ⟨.hbm, 137, rfl⟩
abbrev main_call4_v0 : Ref sig .tc := ⟨.hbm, 138, rfl⟩
abbrev main_v72 : Ref sig .tc := ⟨.hbm, 139, rfl⟩

abbrev nD : Nat := 1
abbrev τ : Topo := Topo.v7x

variable {F : FTy → Type} [FloatOps F]

class Facts₀ : Prop where
  slices_S4x2048x32000_S4x2047x32000_0_0_0 : S4x2048x32000.Slices ![0, 0, 0] S4x2047x32000
  slices_S4x2048_S4x2047_0_1 : S4x2048.Slices ![0, 1] S4x2047
  reducesTo_S4x2047x32000_S4x2047_d2 : S4x2047x32000.ReducesTo [2] S4x2047
  h_S_ : 0 < S_.numel
  bcast_S_S4x2047 : S_.BroadcastsInDim S4x2047 (![] : Fin 0 → Fin S4x2047.rank)
  bcast_S4x2047_S4x2047x1_0_1 : S4x2047.BroadcastsInDim S4x2047x1 (![0, 1] : Fin 2 → Fin S4x2047x1.rank)
  bcast_S4x2047x1_S4x2047x32000_0_1_2 : S4x2047x1.BroadcastsInDim S4x2047x32000 (![0, 1, 2] : Fin 3 → Fin S4x2047x32000.rank)
  bcast_S_S4x2047x1 : S_.BroadcastsInDim S4x2047x1 (![] : Fin 0 → Fin S4x2047x1.rank)
  shapeCasts_S4x2047x1_S4x2047x1x1 : S4x2047x1.ShapeCasts S4x2047x1x1
  bcast_S_S4x2047x1x1 : S_.BroadcastsInDim S4x2047x1x1 (![] : Fin 0 → Fin S4x2047x1x1.rank)
  bcast_S1_S1x1x1x1_3 : S1.BroadcastsInDim S1x1x1x1 (![3] : Fin 1 → Fin S1x1x1x1.rank)
  bcast_S1x1x1x1_S4x2047x1x1_0_1_2_3 : S1x1x1x1.BroadcastsInDim S4x2047x1x1 (![0, 1, 2, 3] : Fin 4 → Fin S4x2047x1x1.rank)
  reducesTo_S4x2047x1x1_S4x2047x1_d3 : S4x2047x1x1.ReducesTo [3] S4x2047x1
  shapeCasts_S4x2047x1_S4x2047 : S4x2047x1.ShapeCasts S4x2047
  bcast_S4_S4x1_0 : S4.BroadcastsInDim S4x1 (![0] : Fin 1 → Fin S4x1.rank)
  bcast_S4x1_S4x2047_0_1 : S4x1.BroadcastsInDim S4x2047 (![0, 1] : Fin 2 → Fin S4x2047.rank)
  bcast_S_S4x17 : S_.BroadcastsInDim S4x17 (![] : Fin 0 → Fin S4x17.rank)
  concatenates_S4x2047x1_S4x2047x1_S4x2047x2_d2 : Shape.Concatenates [S4x2047x1, S4x2047x1] S4x2047x2 2
  slices_S4x17_S4x16_0_1 : S4x17.Slices ![0, 1] S4x16
  reducesTo_S4x16_S4_d1 : S4x16.ReducesTo [1] S4
  bcast_S_S4x16 : S_.BroadcastsInDim S4x16 (![] : Fin 0 → Fin S4x16.rank)
  reducesTo_S4x2047_S4_d1 : S4x2047.ReducesTo [1] S4
  bcast_S_S4 : S_.BroadcastsInDim S4 (![] : Fin 0 → Fin S4.rank)
  reducesTo_S4_S_d0 : S4.ReducesTo [0] S_
  gather_S4x2047x32000_S4x2047x1x1_S4x2047x1_n_2_01_01_2_3_111_wf : GatherDims.WF S4x2047x32000 S4x2047x1x1 S4x2047x1 [] [2] [0, 1] [2] [0, 1] 3 ![1, 1, 1]
  scatter_S4x17_S4x2047x2_S4x2047_n_01_01_2_wf : ScatterDims.WF S4x17 S4x2047x2 S4x2047 [] [0, 1] [0, 1] 2

variable [Facts₀]

def gather_S4x2047x32000_S4x2047x1x1_S4x2047x1_n_2_01_01_2_3_111 : GatherDims S4x2047x32000 S4x2047x1x1 S4x2047x1 where
  offsetDims := []
  collapsedSliceDims := [2]
  operandBatchingDims := [0, 1]
  startIndicesBatchingDims := [0, 1]
  startIndexMap := [2]
  indexVectorDim := 3
  sliceSizes := ![1, 1, 1]
  wf := gather_S4x2047x32000_S4x2047x1x1_S4x2047x1_n_2_01_01_2_3_111_wf
def scatter_S4x17_S4x2047x2_S4x2047_n_01_01_2 : ScatterDims S4x17 S4x2047x2 S4x2047 where
  updateWindowDims := []
  insertedWindowDims := [0, 1]
  scatterDimsToOperandDims := [0, 1]
  indexVectorDim := 2
  wf := scatter_S4x17_S4x2047x2_S4x2047_n_01_01_2_wf

class Facts : Prop extends Facts₀ where

variable [Facts]
-- ==== Proof.KFrame.lean ====
/-
  The frame of `Kernel`: @main is host operations, ONE pipelined region over a 4 × 16 grid, and host operations again.

  At grid point (b, i) the region stages rows [128 i, 128 i + 128) of sample b — a [1, 128, 32000] block of the logits and
  the [1, 128, 1] block of the label's own logit — runs the body, and writes back the [1, 128, 1] block of per-token
  losses. The body loads its two input blocks whole, computes, and overwrites its output block whole; it keeps nothing
  between points. So after the body the output's staging buffer holds one function (`out0_2`) of the two input blocks,
  whatever it held before, and the two inputs' buffers are as they were.

  The host operations after the region write only their own result buffers: none writes an array the region stages,
  none writes an argument. So every weakly fair execution terminates with the arguments as launched (`frame`), with the
  loss array at what the written-back blocks make of it, and every later buffer at the later operations' value of
  that (`run_main`).
-/
import proofs.«165501_j8375186227911_2_alg».proof.Proof.Gen.Kernel.Launch
import proofs.«165501_j8375186227911_2_alg».proof.Proof.Gen.Kernel.Skeleton
import proofs.«165501_j8375186227911_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev sfx : List (List (HloOp τ sig (Elt F))) := [hostOps1, hostOps1_1, hostOps1_2, hostOps1_3, hostOps1_4, hostOps1_5]

/-- A core's buffer contents when the region is entered: the launch contents after the host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0, hostOps0_1] sfx
    (by simp only [List.Forall]; exact ⟨hostOps0_sub, hostOps0_1_sub⟩)
    (by simp only [List.Forall]; exact ⟨hostOps0_fresh, hostOps0_1_fresh⟩) main_chain

/-- The later operations touch the region's arrays and the buffers that bypass it only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- What a later operation must leave alone: the three arrays the region stages and the three integer arguments. Each
    operation writes its own result buffer only, and that is none of these. -/
def Kept (op : HloOp τ sig (Elt F)) : Prop :=
  Proc.devRef .tc main_arg0 ∉ op.writes ∧ Proc.devRef .tc main_v4 ∉ op.writes ∧ Proc.devRef .tc main_v5 ∉ op.writes
    ∧ Proc.devRef .tc main_arg1 ∉ op.writes ∧ Proc.devRef .tc main_arg2 ∉ op.writes ∧ Proc.devRef .tc main_arg3 ∉ op.writes

theorem hostOps1_kept : (hostOps1 : List (HloOp τ sig (Elt F))).Forall Kept := by
  simp only [hostOps1, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_kept : (hostOps1_1 : List (HloOp τ sig (Elt F))).Forall Kept := by
  simp only [hostOps1_1, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_kept : (hostOps1_2 : List (HloOp τ sig (Elt F))).Forall Kept := by
  simp only [hostOps1_2, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_kept : (hostOps1_3 : List (HloOp τ sig (Elt F))).Forall Kept := by
  simp only [hostOps1_3, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_kept : (hostOps1_4 : List (HloOp τ sig (Elt F))).Forall Kept := by
  simp only [hostOps1_4, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_5_kept : (hostOps1_5 : List (HloOp τ sig (Elt F))).Forall Kept := by
  simp only [hostOps1_5, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)

/-- Every operation after the region leaves the staged arrays and the integer arguments alone. -/
theorem sfx_kept : ∀ op ∈ (sfx (F := F)).flatten, Kept op := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop

/-- In the form the launch asks for: no later operation writes an array the region stages. -/
theorem sfx_keeps : ∀ ops ∈ (sfx : List (List (HloOp τ sig (Elt F)))), ∀ op ∈ ops,
    ∀ w, Proc.devRef .tc (Pipeline.arrRef spec0 w) ∉ op.writes :=
  fun ops hops op hop w => by
    have k := sfx_kept op (List.mem_flatten.mpr ⟨ops, hops, hop⟩)
    fin_cases w
    · exact k.1
    · exact k.2.1
    · exact k.2.2.1

/-- What an operation before the region must leave alone: the four arguments. -/
def KeptArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

/-- No operation before the region writes an argument. -/
theorem pre_kept : (List.flatten [hostOps0 (F := F), hostOps0_1]).Forall KeptArgs := by
  simp only [hostOps0, hostOps0_1, List.flatten_cons, List.flatten_nil, List.append_nil, List.cons_append, List.nil_append, KeptArgs, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)

/-- So the region finds each argument as launched. -/
theorem V_main_arg0 (c : Dev nD) : V m c main_arg0 = m ((c : Thread nD τ).loc main_arg0) :=
  StableHlo.after_of_forall_not_mem (b := Proc.devRef .tc main_arg0) _ _ (fun op hop => ((List.forall_iff_forall_mem.mp pre_kept) op hop).1)
theorem V_main_arg1 (c : Dev nD) : V m c main_arg1 = m ((c : Thread nD τ).loc main_arg1) :=
  StableHlo.after_of_forall_not_mem (b := Proc.devRef .tc main_arg1) _ _ (fun op hop => ((List.forall_iff_forall_mem.mp pre_kept) op hop).2.1)
theorem V_main_arg2 (c : Dev nD) : V m c main_arg2 = m ((c : Thread nD τ).loc main_arg2) :=
  StableHlo.after_of_forall_not_mem (b := Proc.devRef .tc main_arg2) _ _ (fun op hop => ((List.forall_iff_forall_mem.mp pre_kept) op hop).2.2.1)
theorem V_main_arg3 (c : Dev nD) : V m c main_arg3 = m ((c : Thread nD τ).loc main_arg3) :=
  StableHlo.after_of_forall_not_mem (b := Proc.devRef .tc main_arg3) _ _ (fun op hop => ((List.forall_iff_forall_mem.mp pre_kept) op hop).2.2.2)

/-- And each integer argument, which the region does not stage, ends as launched after the later operations. -/
theorem W_main_arg1 (dats : (p : Fin _) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ (fun op hop => (sfx_kept op hop).2.2.2.1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem (b := Proc.devRef .tc main_arg2) _ _ (fun op hop => (sfx_kept op hop).2.2.2.2.1),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ (fun op hop => (sfx_kept op hop).2.2.2.2.2),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch's post — the staged arrays at what the proof data computes, every other unscoped buffer as
    the later operations leave it — the arguments end as launched: the logits, a staged input, by its window; the three
    integer arrays by the lemmas above. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

/-- The whole [1, 128, 32000] block and the whole [1, 128, 1] block. -/
abbrev rX : Rect S1x128x32000 := Rect.unit (s := S1x128x32000) ![0, 0, 0] S1x128x32000.size inb_S1x128x32000_S1x128x32000_0_0_0
abbrev rY : Rect S1x128x1 := Rect.unit (s := S1x128x1) ![0, 0, 0] S1x128x1.size inb_S1x128x1_S1x128x1_0_0_0

/-- The output window's staging buffer after the body, from the two input blocks: its one store, of the body's value. -/
def out0_2 (x0 : Vec F S1x128x32000 .f32) (x1 : Vec F S1x128x1 .f32) : Vec F S1x128x1 .f32 :=
  View.canon [⟨rY, k0_pay1 (View.ld x0 rX) (View.ld x1 rY)⟩]

/-- The one store covers the buffer. -/
theorem cover0_2 (p0 : Vec F S1x128x1 .f32) (y : S1x128x1.Idx) :
    ∃ pc ∈ ([⟨rY, p0⟩] : List (View.Piece (Elt F) S1x128x1 .f32)), y ∈ pc.1.set :=
  View.cover_of_tiled [⟨rY, p0⟩] S1x128x1.size (by rfl) y

/-! ## The body's triple -/

set_option maxHeartbeats 1000000 in
/-- The body on whole staging memrefs — the inputs' at contents `x0`, `x1`, the output's at anything — runs to the
    continuation with the inputs' as they were and the output's at `out0_2 x0 x1`. -/
theorem sound_kernel (c : Dev nD) (E : Set ℕ) (i : grid0.Coords) (arg2 : Memref sig .tc .vmem S1x128x32000 .f32) (harg2 : arg2.IsWhole)
    (arg3 : Memref sig .tc .vmem S1x128x1 .f32) (harg3 : arg3.IsWhole) (arg4 : Memref sig .tc .vmem S1x128x1 .f32) (harg4 : arg4.IsWhole)
    (x0 : Vec F S1x128x32000 .f32) (x1 : Vec F S1x128x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ce_kernel i arg2 harg2 arg3 harg3 arg4 harg4) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input's buffer at its block and
    the output's at `out0_2` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the written-back blocks make of it and every other unscoped buffer as the later
    operations leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the program runs to the end and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIFrame.lean ====
/-
  The frame of `KernelIdeal`: @main is host operations, ONE pipelined region over a 4 × 16 grid, and host operations again.

  At grid point (b, i) the region stages rows [128 i, 128 i + 128) of sample b — a [1, 128, 32000] block of the logits and
  the [1, 128, 1] block of the label's own logit — runs the body, and writes back the [1, 128, 1] block of per-token
  losses. The body loads its two input blocks whole, computes, and overwrites its output block whole; it keeps nothing
  between points. So after the body the output's staging buffer holds one function (`out0_2`) of the two input blocks,
  whatever it held before, and the two inputs' buffers are as they were.

  The host operations after the region write only their own result buffers: none writes an array the region stages,
  none writes an argument. So every weakly fair execution terminates with the arguments as launched (`frame`), with the
  loss array at what the written-back blocks make of it, and every later buffer at the later operations' value of
  that (`run_main`).
-/
import proofs.«165501_j8375186227911_2_alg».proof.Proof.Gen.KernelIdeal.Launch
import proofs.«165501_j8375186227911_2_alg».proof.Proof.Gen.KernelIdeal.Skeleton
import proofs.«165501_j8375186227911_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev sfx : List (List (HloOp τ sig (Elt F))) := [hostOps1, hostOps1_1, hostOps1_2, hostOps1_3, hostOps1_4, hostOps1_5]

/-- A core's buffer contents when the region is entered: the launch contents after the host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main [hostOps0, hostOps0_1] sfx
    (by simp only [List.Forall]; exact ⟨hostOps0_sub, hostOps0_1_sub⟩)
    (by simp only [List.Forall]; exact ⟨hostOps0_fresh, hostOps0_1_fresh⟩) main_chain

/-- The later operations touch the region's arrays and the buffers that bypass it only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

/-- What a later operation must leave alone: the three arrays the region stages and the three integer arguments. Each
    operation writes its own result buffer only, and that is none of these. -/
def Kept (op : HloOp τ sig (Elt F)) : Prop :=
  Proc.devRef .tc main_arg0 ∉ op.writes ∧ Proc.devRef .tc main_v4 ∉ op.writes ∧ Proc.devRef .tc main_v5 ∉ op.writes
    ∧ Proc.devRef .tc main_arg1 ∉ op.writes ∧ Proc.devRef .tc main_arg2 ∉ op.writes ∧ Proc.devRef .tc main_arg3 ∉ op.writes

theorem hostOps1_kept : (hostOps1 : List (HloOp τ sig (Elt F))).Forall Kept := by
  simp only [hostOps1, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_1_kept : (hostOps1_1 : List (HloOp τ sig (Elt F))).Forall Kept := by
  simp only [hostOps1_1, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_2_kept : (hostOps1_2 : List (HloOp τ sig (Elt F))).Forall Kept := by
  simp only [hostOps1_2, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_3_kept : (hostOps1_3 : List (HloOp τ sig (Elt F))).Forall Kept := by
  simp only [hostOps1_3, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_4_kept : (hostOps1_4 : List (HloOp τ sig (Elt F))).Forall Kept := by
  simp only [hostOps1_4, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)
theorem hostOps1_5_kept : (hostOps1_5 : List (HloOp τ sig (Elt F))).Forall Kept := by
  simp only [hostOps1_5, List.Forall, Kept, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)

/-- Every operation after the region leaves the staged arrays and the integer arguments alone. -/
theorem sfx_kept : ∀ op ∈ (sfx (F := F)).flatten, Kept op := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps1_kept) op hop
  · exact (List.forall_iff_forall_mem.mp hostOps1_1_kept) op hop
  · exact (List.forall_iff_forall_mem.mp hostOps1_2_kept) op hop
  · exact (List.forall_iff_forall_mem.mp hostOps1_3_kept) op hop
  · exact (List.forall_iff_forall_mem.mp hostOps1_4_kept) op hop
  · exact (List.forall_iff_forall_mem.mp hostOps1_5_kept) op hop

/-- In the form the launch asks for: no later operation writes an array the region stages. -/
theorem sfx_keeps : ∀ ops ∈ (sfx : List (List (HloOp τ sig (Elt F)))), ∀ op ∈ ops,
    ∀ w, Proc.devRef .tc (Pipeline.arrRef spec0 w) ∉ op.writes :=
  fun ops hops op hop w => by
    have k := sfx_kept op (List.mem_flatten.mpr ⟨ops, hops, hop⟩)
    fin_cases w
    · exact k.1
    · exact k.2.1
    · exact k.2.2.1

/-- What an operation before the region must leave alone: the four arguments. -/
def KeptArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

/-- No operation before the region writes an argument. -/
theorem pre_kept : (List.flatten [hostOps0 (F := F), hostOps0_1]).Forall KeptArgs := by
  simp only [hostOps0, hostOps0_1, List.flatten_cons, List.flatten_nil, List.append_nil, List.cons_append, List.nil_append, KeptArgs, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.reshape_writes, Finset.mem_singleton]
  repeat' apply And.intro
  all_goals exact StableHlo.devRef_ne_of_ne (by decide)

/-- So the region finds each argument as launched. -/
theorem V_main_arg0 (c : Dev nD) : V m c main_arg0 = m ((c : Thread nD τ).loc main_arg0) :=
  StableHlo.after_of_forall_not_mem (b := Proc.devRef .tc main_arg0) _ _ (fun op hop => ((List.forall_iff_forall_mem.mp pre_kept) op hop).1)
theorem V_main_arg1 (c : Dev nD) : V m c main_arg1 = m ((c : Thread nD τ).loc main_arg1) :=
  StableHlo.after_of_forall_not_mem (b := Proc.devRef .tc main_arg1) _ _ (fun op hop => ((List.forall_iff_forall_mem.mp pre_kept) op hop).2.1)
theorem V_main_arg2 (c : Dev nD) : V m c main_arg2 = m ((c : Thread nD τ).loc main_arg2) :=
  StableHlo.after_of_forall_not_mem (b := Proc.devRef .tc main_arg2) _ _ (fun op hop => ((List.forall_iff_forall_mem.mp pre_kept) op hop).2.2.1)
theorem V_main_arg3 (c : Dev nD) : V m c main_arg3 = m ((c : Thread nD τ).loc main_arg3) :=
  StableHlo.after_of_forall_not_mem (b := Proc.devRef .tc main_arg3) _ _ (fun op hop => ((List.forall_iff_forall_mem.mp pre_kept) op hop).2.2.2)

/-- And each integer argument, which the region does not stage, ends as launched after the later operations. -/
theorem W_main_arg1 (dats : (p : Fin _) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ (fun op hop => (sfx_kept op hop).2.2.2.1),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem (b := Proc.devRef .tc main_arg2) _ _ (fun op hop => (sfx_kept op hop).2.2.2.2.1),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ (fun op hop => (sfx_kept op hop).2.2.2.2.2),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the launch's post — the staged arrays at what the proof data computes, every other unscoped buffer as
    the later operations leave it — the arguments end as launched: the logits, a staged input, by its window; the three
    integer arrays by the lemmas above. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

/-- The whole [1, 128, 32000] block and the whole [1, 128, 1] block. -/
abbrev rX : Rect S1x128x32000 := Rect.unit (s := S1x128x32000) ![0, 0, 0] S1x128x32000.size inb_S1x128x32000_S1x128x32000_0_0_0
abbrev rY : Rect S1x128x1 := Rect.unit (s := S1x128x1) ![0, 0, 0] S1x128x1.size inb_S1x128x1_S1x128x1_0_0_0

/-- The output window's staging buffer after the body, from the two input blocks: its one store, of the body's value. -/
def out0_2 (x0 : Vec F S1x128x32000 .f32) (x1 : Vec F S1x128x1 .f32) : Vec F S1x128x1 .f32 :=
  View.canon [⟨rY, k0_pay1 (View.ld x0 rX) (View.ld x1 rY)⟩]

/-- The one store covers the buffer. -/
theorem cover0_2 (p0 : Vec F S1x128x1 .f32) (y : S1x128x1.Idx) :
    ∃ pc ∈ ([⟨rY, p0⟩] : List (View.Piece (Elt F) S1x128x1 .f32)), y ∈ pc.1.set :=
  View.cover_of_tiled [⟨rY, p0⟩] S1x128x1.size (by rfl) y

/-! ## The body's triple -/

set_option maxHeartbeats 1000000 in
/-- The body on whole staging memrefs — the inputs' at contents `x0`, `x1`, the output's at anything — runs to the
    continuation with the inputs' as they were and the output's at `out0_2 x0 x1`. -/
theorem sound_kernel (c : Dev nD) (E : Set ℕ) (i : grid0.Coords) (arg2 : Memref sig .tc .vmem S1x128x32000 .f32) (harg2 : arg2.IsWhole)
    (arg3 : Memref sig .tc .vmem S1x128x1 .f32) (harg3 : arg3.IsWhole) (arg4 : Memref sig .tc .vmem S1x128x1 .f32) (harg4 : arg4.IsWhole)
    (x0 : Vec F S1x128x32000 .f32) (x1 : Vec F S1x128x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__ce_kernel i arg2 harg2 arg3 harg3 arg4 harg4) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the region finds them; after the body at point `t` each input's buffer at its block and
    the output's at `out0_2` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every staged array at what the written-back blocks make of it and every other unscoped buffer as the later
    operations leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: the program runs to the end and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.CeSpec.lean ====
/-
  The mathematics of one token's cross-entropy, over the extended reals, with no program in sight.

  For a row `x : Fin 32000 → EReal` of logits and a label word `l`:
  * `rmax x` is the row's maximum (the fold of `max` from `-∞`), `esum x = ∑ v, exp (x v - rmax x)`,
    `lse x = rmax x + log (esum x)` the log-sum-exp, and `logp x v = (x v - rmax x) - log (esum x)` the log-softmax;
  * a label counts from the end when negative (`lbl`), is *in range* when the normalised word lies in `[0, 31999]`
    (`inRange`), and names the column `kOf l` (the normalised word read signed and clamped into the row);
  * `pick x l` is the row's entry at the label, and `-∞` (what a NaN fill reads as) for a label out of range.

  One side computes `lse x - pick x l`, the other `-(pick (logp x) l)`; for a row of real numbers they are one
  extended real (`ce_forms`, in CeMath).
-/
import Idealize.ShloMosaic.PureOps.Ideal
import Idealize.ShloMosaic.Lib.ValueIdx

noncomputable section

namespace Cert.CE

open Idealize.ShloMosaic

/-- A row's maximum: the fold of `max` from `-∞` over the vocabulary. -/
def rmax (x : Fin 32000 → EReal) : EReal := (Finset.univ : Finset (Fin 32000)).fold max ⊥ x

/-- The row's sum of exponentials, shifted by its maximum. -/
def esum (x : Fin 32000 → EReal) : EReal := ∑ v : Fin 32000, Ideal.exp (x v - rmax x)

/-- The row's log-sum-exp. -/
def lse (x : Fin 32000 → EReal) : EReal := rmax x + Ideal.log (esum x)

/-- The row's log-softmax at column `v`. -/
def logp (x : Fin 32000 → EReal) (v : Fin 32000) : EReal := (x v - rmax x) - Ideal.log (esum x)

/-- A negative label counts from the end of the row. -/
def lbl (l : BitVec 32) : BitVec 32 := if l.slt 0#32 then l + 32000#32 else l

/-- The normalised label lies in `[0, 31999]` (signed). -/
def inRange (l : BitVec 32) : Prop := (0#32).sle (lbl l) = true ∧ (lbl l).sle 31999#32 = true

instance : DecidablePred inRange := fun l => by unfold inRange; infer_instance

/-- The column a label names: the normalised word read signed and clamped into the row. -/
def kOf (l : BitVec 32) : Fin 32000 := ⟨min (lbl l).toInt.toNat 31999, by omega⟩

/-- The row's entry at the label; `-∞` for a label out of range. -/
def pick (x : Fin 32000 → EReal) (l : BitVec 32) : EReal := if inRange l then x (kOf l) else ⊥

end Cert.CE

end
-- ==== Proof.LseRead.lean ====
/-
  The kernel body's arithmetic read at one row: the row's log-sum-exp minus the label block's entry.
-/
import proofs.«165501_j8375186227911_2_alg».proof.Proof.CeSpec
import proofs.«165501_j8375186227911_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.CE.LseRead

open Idealize.ShloMosaic Idealize.ShloMosaic.ValueIdx Cert.KernelIdeal Cert.KernelIdeal.Gen

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` of a `[128, 32000]` array with column `k` put back is `(r, k)`. -/
theorem lift_row (h : S128x32000.Reduces [1] S128) (r : Fin 128) (k : Fin (S128x32000.size 1)) :
    h.lift (ix1 r) k = ix2 r (⟨k.val, k.isLt⟩ : Fin 32000) := by
  funext c; apply Fin.ext
  fin_cases c <;> rfl

/-- The word of `-∞` reads `-∞`. -/
theorem ofBits_negInf : Ideal.ofBits .f32 0xFF800000#32 = ⊥ := by simp [Ideal.ofBits, Ideal.ieee]

/-- The lane maximum of a `[128, 32000]` array from `-∞`, at row `r`: the fold of `max` from `-∞` over the row. -/
theorem rowMax_apply (x : FVec Ideal S128x32000 .f32) (h : S128x32000.Reduces [1] S128) (hφ : FKind.Formats .f32)
    (hacc : (0xFF800000#32 : BitVec 32) = 0xFF800000#32) (r : Fin 128) :
    multiReduction (F := Ideal) .maximumf [1] S128 x 0xFF800000#32 h hφ hacc (ix1 r)
      = (Finset.univ : Finset (Fin 32000)).fold max ⊥ (fun k => x (ix2 r k)) := by
  refine (Ideal.multiReduction_maximumf_single x _ h hφ hacc (ix1 r)).trans ?_
  rw [Ideal.ofBits_def, ofBits_negInf]
  have hf : (x ∘ h.lift (ix1 r)) = fun k : Fin 32000 => x (ix2 r k) := funext fun k => congrArg x (lift_row h r k)
  exact congrArg (fun f => Finset.fold max (⊥ : EReal) f (Finset.univ : Finset (Fin 32000))) hf

/-- The lane sum of a `[128, 32000]` array from `0`, at row `r`: the sum over the row. -/
theorem rowSum_apply (x : FVec Ideal S128x32000 .f32) (h : S128x32000.Reduces [1] S128) (hφ : FKind.Formats .f32)
    (hacc : (0x00000000#32 : BitVec 32) = 0x00000000#32) (r : Fin 128) :
    multiReduction (F := Ideal) .add [1] S128 x 0x00000000#32 h hφ hacc (ix1 r)
      = ∑ k : Fin 32000, x (ix2 r k) := by
  refine (Ideal.multiReduction_add_single x _ h hφ hacc (ix1 r)).trans ?_
  exact Finset.sum_congr rfl fun k _ => congrArg x (lift_row h r k)

/-- The exponential and the logarithm of an array, read at an index. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The kernel body's value at row `r`: the row's maximum plus the logarithm of the row's sum of shifted
    exponentials — the log-sum-exp of the row — minus the label block's entry at that row. -/
theorem pay_apply (v0 : Vec Ideal S1x128x32000 .f32) (v11 : Vec Ideal S1x128x1 .f32) (r : Fin 128) :
    k0_pay1 (F := Ideal) v0 v11 (ix3 (0 : Fin 1) r (0 : Fin 1))
      = Cert.CE.lse (fun v => v0 (ix3 (0 : Fin 1) r v)) - v11 (ix3 (0 : Fin 1) r (0 : Fin 1)) := by
  unfold k0_pay1
  rw [shapeCast_ab_1ab_apply, subf_apply, addf_apply, shapeCast_1ab_ab_apply, shapeCast_a_a1_apply, rowMax_apply,
    log_apply, shapeCast_a_a1_apply, rowSum_apply]
  simp only [exp_apply, subf_apply, broadcastTo_a1_ab_apply, shapeCast_a_a1_apply, rowMax_apply, shapeCast_1ab_ab_apply]
  rw [rowMax_apply]
  simp only [shapeCast_1ab_ab_apply]
  rfl

end Cert.CE.LseRead

end
-- ==== Proof.KIValue.lean ====
/-
  What the loss array holds after the region, as ONE function of the arrays the region finds.

  Grid point (b, i) writes back the [1, 128, 1] block of the loss array at block index (b, i, 0). Its rows are rows
  128 i … 128 i + 127 of sample b, and row r of the block is the log-sum-exp of row r of the point's logits block
  minus row r of the point's label-logit block. Both input blocks sit at the same block index as the output block
  (the logits block spans all 32000 columns), so entry (b, t, 0) of the written-back block is
  `lse (logits[b, t, ·]) − label_logit[b, t, 0]`: the function `lossOf`. The 64 blocks tile the array, so after the
  region the whole array is `lossOf` of the region-entry arrays (`final`).
-/
import proofs.«165501_j8375186227911_2_alg».proof.Proof.KIFrame
import proofs.«165501_j8375186227911_2_alg».proof.Proof.LseRead
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The per-token loss array of a logits array `X` and a label-logit array `lab`: at (b, t, 0) the log-sum-exp of
    row (b, t) of `X` minus `lab` there. -/
def lossOf (X : S4x2048x32000.Idx → EReal) (lab : S4x2048x1.Idx → EReal) : S4x2048x1.Idx → EReal :=
  fun i => Cert.CE.lse (fun v => X (ix3 (⟨(i 0).val, (i 0).isLt⟩ : Fin 4) (⟨(i 1).val, (i 1).isLt⟩ : Fin 2048) v)) - lab i

/-- The body's value at an index of its block: the row's log-sum-exp minus the label block's entry. -/
theorem pay_at (x0 : Vec Ideal S1x128x32000 .f32) (x1 : Vec Ideal S1x128x1 .f32) (j : S1x128x1.Idx) :
    k0_pay1 (F := Ideal) x0 x1 j
      = Cert.CE.lse (fun v => x0 (ix3 (0 : Fin 1) (⟨(j 1).val, (j 1).isLt⟩ : Fin 128) v)) - x1 j := by
  have h0 : (j 0).val < 1 := (j 0).isLt
  have h2 : (j 2).val < 1 := (j 2).isLt
  have hj : j = ix3 (0 : Fin 1) (⟨(j 1).val, (j 1).isLt⟩ : Fin 128) (0 : Fin 1) := by
    funext a
    match a with
    | ⟨0, _⟩ => exact Fin.ext (by show (j 0).val = 0; omega)
    | ⟨1, _⟩ => rfl
    | ⟨2, _⟩ => exact Fin.ext (by show (j 2).val = 0; omega)
  refine (congrArg (k0_pay1 (F := Ideal) x0 x1) hj).trans ((Cert.CE.LseRead.pay_apply x0 x1 _).trans ?_)
  exact congrArg (fun i => Cert.CE.lse (fun v => x0 (ix3 (0 : Fin 1) (⟨(j 1).val, (j 1).isLt⟩ : Fin 128) v)) - x1 i) hj.symm

/-- The printed index maps, decided over the grid: the three windows move together on the sample and row-block axes
    and sit at block 0 on the last axis; the output's block indices stay in their ranges. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (2 : Fin 3) = 0 ∧ win0_2.index t (0 : Fin 3) ≤ 3 ∧ win0_2.index t (1 : Fin 3) ≤ 15 :=
  (by decide +kernel : ∀ t : Fin grid0.N, _)

/-- Every block of the loss array is some point's. -/
theorem idx_onto : ∀ (q0 : Fin 4) (q1 : Fin 16), ∃ t : Fin cfg0.N, win0_2.index t = ![q0.val, q1.val, 0] :=
  (by decide +kernel : ∀ (q0 : Fin 4) (q1 : Fin 16), ∃ t : Fin grid0.N, win0_2.index t = ![q0.val, q1.val, 0])

/-- The label-logit block read at an index of the block is the array at the OUTPUT block's index there. -/
theorem lab_blk (c : Dev nD) (t : Fin cfg0.N) (j : S1x128x1.Idx) :
    iblk m c 1 t j = V m c main_v4 (((cfg0.win 2).blk t).view.emb j) := by
  obtain ⟨e0, e1, e2, e3, e4, e5, e6, e7, e8⟩ := idx_facts t
  show V m c main_v4 (((cfg0.win 1).blk t).view.emb j) = V m c main_v4 (((cfg0.win 2).blk t).view.emb j)
  refine congrArg (V m c main_v4) ?_
  funext a; apply Fin.ext
  match a with
  | ⟨0, _⟩ => show win0_1.index t (0 : Fin 3) * 1 + 1 * (j 0).val = win0_2.index t (0 : Fin 3) * 1 + 1 * (j 0).val; omega
  | ⟨1, _⟩ => show win0_1.index t (1 : Fin 3) * 128 + 1 * (j 1).val = win0_2.index t (1 : Fin 3) * 128 + 1 * (j 1).val; omega
  | ⟨2, _⟩ => show win0_1.index t (2 : Fin 3) * 1 + 1 * (j 2).val = win0_2.index t (2 : Fin 3) * 1 + 1 * (j 2).val; omega

/-- Row `j 1` of the logits block, column `v`, is the logits array at the output block's sample and row, column `v`. -/
theorem row_blk (c : Dev nD) (t : Fin cfg0.N) (j : S1x128x1.Idx) (v : Fin 32000) :
    iblk m c 0 t (ix3 (0 : Fin 1) (⟨(j 1).val, (j 1).isLt⟩ : Fin 128) v)
      = V m c main_arg0 (ix3 (⟨((((cfg0.win 2).blk t).view.emb j) 0).val, ((((cfg0.win 2).blk t).view.emb j) 0).isLt⟩ : Fin 4)
          (⟨((((cfg0.win 2).blk t).view.emb j) 1).val, ((((cfg0.win 2).blk t).view.emb j) 1).isLt⟩ : Fin 2048) v) := by
  obtain ⟨e0, e1, e2, e3, e4, e5, e6, e7, e8⟩ := idx_facts t
  have h0 : (j 0).val < 1 := (j 0).isLt
  show V m c main_arg0 (((cfg0.win 0).blk t).view.emb (ix3 (0 : Fin 1) (⟨(j 1).val, (j 1).isLt⟩ : Fin 128) v)) = _
  refine congrArg (V m c main_arg0) ?_
  funext a; apply Fin.ext
  match a with
  | ⟨0, _⟩ => show win0_0.index t (0 : Fin 3) * 1 + 1 * 0 = win0_2.index t (0 : Fin 3) * 1 + 1 * (j 0).val; omega
  | ⟨1, _⟩ => show win0_0.index t (1 : Fin 3) * 128 + 1 * (j 1).val = win0_2.index t (1 : Fin 3) * 128 + 1 * (j 1).val; omega
  | ⟨2, _⟩ => show win0_0.index t (2 : Fin 3) * 32000 + 1 * v.val = v.val; omega

/-- What point `t` writes back is block `t` of `lossOf` of the arrays as the region finds them. -/
theorem flushed_eq (c : Dev nD) (t : Fin cfg0.N) :
    (dats m 0 c).flushed 2 t = ((cfg0.win 2).blk t).view.read (Elt Ideal) (lossOf (V m c main_arg0) (V m c main_v4)) := by
  show (cfg0.win 2).cut (grid0.coords t) ((dats m 0 c).after 2 t) = _
  rw [after0_2]
  unfold out0_2
  rw [View.canon_unit_zero hz3]
  simp only [View.ld_unit_zero (S := S1x128x32000) hz3, View.ld_unit_zero (S := S1x128x1) hz3]
  funext j
  show k0_pay1 (F := Ideal) (iblk m c 0 t) (iblk m c 1 t) j = lossOf (V m c main_arg0) (V m c main_v4) (((cfg0.win 2).blk t).view.emb j)
  refine (pay_at (iblk m c 0 t) (iblk m c 1 t) j).trans ?_
  unfold lossOf
  rw [lab_blk m c t j]
  refine congrArg (fun x => Cert.CE.lse x - V m c main_v4 (((cfg0.win 2).blk t).view.emb j)) ?_
  funext v
  exact row_blk m c t j v

/-- An index of the array is in point `t`'s block iff each coordinate is in the block's range on its axis. -/
theorem mem_blk (t : Fin cfg0.N) (i : S4x2048x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v5).slice (win0_2.rect t)).set ↔ _
  rw [View.set_slice_whole, Rect.mem_set_unit]
  exact Iff.rfl

/-- Every index of the loss array is in the block of the point at its sample and row block. -/
theorem cover (i : S4x2048x1.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 1 ≤ (i 2).val ∧ (i 2).val < win0_2.index t (2 : Fin 3) * 1 + 1; omega

/-- The loss array after the region: `lossOf` of the logits and the label logits as the region finds them. -/
theorem final (c : Dev nD) : (dats m 0 c).arrAt 2 cfg0.N = lossOf (V m c main_arg0) (V m c main_v4) :=
  (dats m 0 c).arrAt_eq_of_cover 2 (lossOf (V m c main_arg0) (V m c main_v4)) (fun t _ => flushed_eq m c t) cover

end Cert.KernelIdeal.Val

end
-- ==== Proof.PickRead.lean ====
/-
  The label gather of the two programs, read at an index.

  Each program takes, for every (batch, row), one entry of a `[4, R, 32000]` array along the vocabulary axis — the
  logit itself on one side (R = 2048), the log-softmax entry on the other (R = 2047) — at the row's label, through the
  same block of operations: a negative label is normalised by adding the row length 32000, the labels in `[0, 31999]`
  are masked, the array is gathered at the label clamped into the row, and the masked-out positions are filled with NaN.
  Read over the extended reals at `(b, t, 0)` the block is `pick` of the row at the label (`takeAlong_apply`, at any
  row count). One side feeds the block the ids shifted left by one column (`labelVal`, `labelVal_apply`), the other the
  ids without their first column (`ref_pick_apply`); in both, the label of row `t` is the id at column `t + 1`.
-/
import proofs.«165501_j8375186227911_2_alg».proof.Proof.CeSpec
import proofs.«165501_j8375186227911_2_alg».proof.Proof.RefRead
import proofs.«165501_j8375186227911_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ReduceAll
import Idealize.ShloMosaic.PureOps.Reduce
import Idealize.ShloMosaic.PureOps.Ideal

noncomputable section

namespace Cert.CE.PickRead

open Idealize.ShloMosaic
open Idealize.ShloMosaic.ValueIdx

section Gather
variable {α : Type}

abbrev pickDims (R : Nat)
    (wf : GatherDims.WF ⟨3, ![4, R, 32000]⟩ ⟨4, ![4, R, 1, 1]⟩ ⟨3, ![4, R, 1]⟩ [] [2] [0, 1] [2] [0, 1] 3 ![1, 1, 1]) :
    GatherDims ⟨3, ![4, R, 32000]⟩ ⟨4, ![4, R, 1, 1]⟩ ⟨3, ![4, R, 1]⟩ where
  offsetDims := []
  collapsedSliceDims := [2]
  operandBatchingDims := [0, 1]
  startIndicesBatchingDims := [0, 1]
  startIndexMap := [2]
  indexVectorDim := 3
  sliceSizes := ![1, 1, 1]
  wf := wf

theorem gather_pick_apply {R w : Nat}
    (wf : GatherDims.WF ⟨3, ![4, R, 32000]⟩ ⟨4, ![4, R, 1, 1]⟩ ⟨3, ![4, R, 1]⟩ [] [2] [0, 1] [2] [0, 1] 3 ![1, 1, 1])
    (x : (⟨3, ![4, R, 32000]⟩ : Shape).Idx → α) (idx : IVec ⟨4, ![4, R, 1, 1]⟩ w) (b : Fin 4) (t : Fin R) :
    Host.gather (pickDims R wf) x idx (ix3 b t (0 : Fin 1))
      = x (ix3 b t (⟨min (idx (ix4 b t (0 : Fin 1) (0 : Fin 1))).toInt.toNat 31999, by omega⟩ : Fin 32000)) := by
  unfold Host.gather
  congr 1
  funext a
  refine Fin.ext ?_
  match a with
  | ⟨0, _⟩ =>
    show (pickDims R wf).start (ix3 b t (0 : Fin 1)) idx 0 + (pickDims R wf).batchCoord (ix3 b t (0 : Fin 1)) 0
      + (pickDims R wf).offCoord (ix3 b t (0 : Fin 1)) 0 = b.val
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    simp only [Nat.add_zero, Nat.zero_add]
    rfl
  | ⟨1, _⟩ =>
    show (pickDims R wf).start (ix3 b t (0 : Fin 1)) idx 1 + (pickDims R wf).batchCoord (ix3 b t (0 : Fin 1)) 1
      + (pickDims R wf).offCoord (ix3 b t (0 : Fin 1)) 1 = t.val
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    simp only [Nat.add_zero, Nat.zero_add]
    rfl
  | ⟨2, _⟩ =>
    show (pickDims R wf).start (ix3 b t (0 : Fin 1)) idx 2 + (pickDims R wf).batchCoord (ix3 b t (0 : Fin 1)) 2
      + (pickDims R wf).offCoord (ix3 b t (0 : Fin 1)) 2 = min (idx (ix4 b t (0 : Fin 1) (0 : Fin 1))).toInt.toNat 31999
    rw [GatherDims.batchCoord_eq_zero _ _ _ (show (2 : Fin 3) ∉ ([0, 1] : List (Fin 3)) by decide),
      GatherDims.offCoord_eq_zero _ _ _ (fun h => ((GatherDims.mem_sKept _ _).mp h).1 (show (2 : Fin 3) ∈ ([2] : List (Fin 3)) by decide))]
    simp only [Nat.add_zero]
    unfold GatherDims.start
    rw [dif_pos (show (2 : Fin 3) ∈ (pickDims R wf).startIndexMap from List.mem_singleton.mpr rfl)]
    have hsi : (pickDims R wf).siIdx (ix3 b t (0 : Fin 1)) ⟨List.idxOf (2 : Fin 3) (pickDims R wf).startIndexMap,
        List.idxOf_lt_length_iff.2 (List.mem_singleton.mpr rfl)⟩ = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- The same read with the start index named. -/
theorem gather_pick_apply' {R w : Nat}
    (wf : GatherDims.WF ⟨3, ![4, R, 32000]⟩ ⟨4, ![4, R, 1, 1]⟩ ⟨3, ![4, R, 1]⟩ [] [2] [0, 1] [2] [0, 1] 3 ![1, 1, 1])
    (x : (⟨3, ![4, R, 32000]⟩ : Shape).Idx → α) (idx : IVec ⟨4, ![4, R, 1, 1]⟩ w) (b : Fin 4) (t : Fin R)
    (n : BitVec w) (hn : idx (ix4 b t (0 : Fin 1) (0 : Fin 1)) = n) :
    Host.gather (pickDims R wf) x idx (ix3 b t (0 : Fin 1))
      = x (ix3 b t (⟨min n.toInt.toNat 31999, by omega⟩ : Fin 32000)) := by
  subst hn
  exact gather_pick_apply wf x idx b t

end Gather

/-! ## Words -/

section Words

/-- The program's normalisation of a label is `lbl`. -/
theorem select_slt_eq_lbl (l : BitVec 32) :
    Scalar.select (IntOp.cmpi .slt l 0#32) (IntOp.addi l 32000#32) l = Cert.CE.lbl l := by
  show (if BitVec.ofBool (l.slt 0#32) = 1 then l + 32000#32 else l) = if l.slt 0#32 then l + 32000#32 else l
  cases l.slt 0#32 <;> rfl

/-- The program's range mask is 1 exactly on the labels in range. -/
theorem mask_eq_one_iff (n : BitVec 32) :
    IntOp.andi (IntOp.andi (IntOp.cmpi .sge n 0#32) (IntOp.cmpi .sle n 31999#32)) 1#1 = 1#1
      ↔ ((0#32).sle n = true ∧ n.sle 31999#32 = true) := by
  show (BitVec.ofBool ((0#32).sle n) &&& BitVec.ofBool (n.sle 31999#32)) &&& 1#1 = 1#1 ↔ _
  cases (0#32).sle n <;> cases n.sle 31999#32 <;> decide

end Words

/-! ## An and-reduce over a unit axis -/

section UnitReduce
variable {s t u : Shape} {a : Fin s.rank}

/-- A reduce by `and` over an axis of size one is the one element and the initial value. -/
theorem reduce_andi_unit (x : s.Idx → BitVec 1) (init : u.Idx → BitVec 1) (h' : s.ReducesTo [a] t) (h : s.Reduces [a] t)
    (hu : 0 < u.numel) (h1 : s.size a = 1) (j : t.Idx) :
    Host.reduce IntOp.andi x init h' hu j = IntOp.andi (x (h.lift j ⟨0, by omega⟩)) (init (Shape.Idx.first hu)) := by
  rw [Host.reduce_eq_fold_single IntOp.andi x init h' h hu j]
  haveI : Unique (Fin (s.size a)) := ⟨⟨⟨0, by omega⟩⟩, fun k => Fin.ext (by have := k.isLt; omega)⟩
  rw [Finset.univ_unique, Finset.fold_singleton]
  have hd : (default : Fin (s.size a)) = ⟨0, by omega⟩ := Fin.ext (by have := (default : Fin (s.size a)).isLt; omega)
  show IntOp.andi (x (h.lift j default)) _ = _
  rw [hd]

end UnitReduce

/-! ## The gather-along-the-vocabulary block, at any row count

Both programs gather along the vocabulary axis through the same fourteen operations, over a `[4, R, 32000]` array and
`[4, R, 1]` ids: normalise the ids, mask the ones in range, gather at the clamped ids, fill the rest with NaN. -/

section Take
variable {F : FTy → Type} [FloatOps F]

abbrev shO (R : Nat) : Shape := ⟨3, ![4, R, 32000]⟩
abbrev sh3 (R : Nat) : Shape := ⟨3, ![4, R, 1]⟩
abbrev sh4 (R : Nat) : Shape := ⟨4, ![4, R, 1, 1]⟩
abbrev sh0 : Shape := ⟨0, ![]⟩
abbrev sh1 : Shape := ⟨1, ![1]⟩
abbrev sh1111 : Shape := ⟨4, ![1, 1, 1, 1]⟩

/-- The shape facts the block's operations take, at row count `R`. -/
structure TakeFacts (R : Nat) : Prop where
  b3 : sh0.BroadcastsInDim (sh3 R) (![] : Fin 0 → Fin (sh3 R).rank)
  sc : (sh3 R).ShapeCasts (sh4 R)
  b4 : sh0.BroadcastsInDim (sh4 R) (![] : Fin 0 → Fin (sh4 R).rank)
  b1 : sh1.BroadcastsInDim sh1111 (![3] : Fin 1 → Fin sh1111.rank)
  b1111 : sh1111.BroadcastsInDim (sh4 R) (![0, 1, 2, 3] : Fin 4 → Fin (sh4 R).rank)
  red : (sh4 R).ReducesTo [3] (sh3 R)
  red' : (sh4 R).Reduces [3] (sh3 R)
  h0 : 0 < sh0.numel
  wf : GatherDims.WF (shO R) (sh4 R) (sh3 R) [] [2] [0, 1] [2] [0, 1] 3 ![1, 1, 1]

variable {R : Nat}

/-- The normalised ids: a negative one counts from the end of the row. -/
def nrm (fx : TakeFacts R) (ids : IVec (sh3 R) 32) : IVec (sh3 R) 32 :=
  select (cmpi .slt ids (broadcastInDim (sh3 R) ![] fx.b3 (constantI sh0 32 0#32)))
    (addi ids (broadcastInDim (sh3 R) ![] fx.b3 (constantI sh0 32 32000#32))) ids

/-- The normalised ids as start indices, one per (batch, row). -/
def nrmS (fx : TakeFacts R) (ids : IVec (sh3 R) 32) : IVec (sh4 R) 32 :=
  shapeCast _ (nrm fx ids) fx.sc

/-- The in-range mask: 0 ≤ id ≤ 31999, and-reduced over the unit axis. -/
def msk (fx : TakeFacts R) (ids : IVec (sh3 R) 32) : IVec (sh3 R) 1 :=
  Host.reduce IntOp.andi
    (andi (cmpi .sge (nrmS fx ids) (broadcastInDim (sh4 R) ![] fx.b4 (constantI sh0 32 0#32)))
      (cmpi .sle (nrmS fx ids) (broadcastInDim (sh4 R) ![0, 1, 2, 3] fx.b1111
        (broadcastInDim sh1111 ![3] fx.b1 (constantI sh1 32 31999#32)))))
    (constantI sh0 1 1#1) fx.red fx.h0

/-- The gathered value where the id is in range, the NaN word elsewhere. -/
def takeAlong (fx : TakeFacts R) (x : FVec F (shO R) .f32) (ids : IVec (sh3 R) 32) : FVec F (sh3 R) .f32 :=
  select (msk fx ids) (Host.gather (pickDims R fx.wf) x (nrmS fx ids))
    (broadcastInDim (sh3 R) ![] fx.b3 (constant sh0 .f32 0x7FC00000#32))

/-- Read at `(b, t, 0)` over the extended reals, the block is `pick` of the row at the id. -/
theorem takeAlong_apply (fx : TakeFacts R) (x : FVec Ideal (shO R) .f32) (ids : IVec (sh3 R) 32) (b : Fin 4) (t : Fin R) :
    takeAlong (F := Ideal) fx x ids (ix3 b t (0 : Fin 1))
      = Cert.CE.pick (fun v => x (ix3 b t v)) (ids (ix3 b t (0 : Fin 1))) := by
  have hn3 : nrm fx ids (ix3 b t (0 : Fin 1)) = Cert.CE.lbl (ids (ix3 b t (0 : Fin 1))) := select_slt_eq_lbl _
  have hn4 : nrmS fx ids (ix4 b t (0 : Fin 1) (0 : Fin 1)) = Cert.CE.lbl (ids (ix3 b t (0 : Fin 1))) := by
    rw [← hn3]; unfold nrmS
    exact shapeCast_apply _ fx.sc (ix4 b t (0 : Fin 1) (0 : Fin 1)) (ix3 b t (0 : Fin 1))
      (by rw [Shape.rowMajor_val_three, Shape.rowMajor_val_four]
          show (b.val * R + t.val) * 1 + 0 = ((b.val * R + t.val) * 1 + 0) * 1 + 0
          simp only [Nat.mul_one, Nat.add_zero])
  have hl : ∀ k, fx.red'.lift (ix3 b t (0 : Fin 1)) k = ix4 b t (0 : Fin 1) (0 : Fin 1) := by
    intro k; funext c; refine Fin.ext ?_
    match c with
    | ⟨0, _⟩ => rfl
    | ⟨1, _⟩ => rfl
    | ⟨2, _⟩ => rfl
    | ⟨3, _⟩ => exact Nat.lt_one_iff.1 k.isLt
  have hm : msk fx ids (ix3 b t (0 : Fin 1)) = 1#1 ↔ Cert.CE.inRange (ids (ix3 b t (0 : Fin 1))) := by
    unfold msk
    rw [reduce_andi_unit _ _ fx.red fx.red' fx.h0 rfl (ix3 b t (0 : Fin 1)), hl]
    show IntOp.andi (IntOp.andi (IntOp.cmpi .sge (nrmS fx ids (ix4 b t (0 : Fin 1) (0 : Fin 1))) 0#32)
      (IntOp.cmpi .sle (nrmS fx ids (ix4 b t (0 : Fin 1) (0 : Fin 1))) 31999#32)) 1#1 = 1#1 ↔ _
    rw [hn4]; exact mask_eq_one_iff _
  unfold takeAlong Cert.CE.pick
  rw [select_apply]
  by_cases hr : Cert.CE.inRange (ids (ix3 b t (0 : Fin 1)))
  · rw [hm.2 hr, select_one, if_pos hr, gather_pick_apply' fx.wf x _ b t _ hn4]; rfl
  · rw [eq_zero_of_ne_one (fun h => hr (hm.1 h)), select_zero, if_neg hr]
    show Ideal.ofBits .f32 0x7FC00000#32 = ⊥
    simp [Ideal.ofBits, Ideal.ieee]

end Take

/-! ## The kernel program's host prefix -/

section Kernel
open Cert.KernelIdeal Cert.KernelIdeal.Gen
open Idealize.ShloMosaic.TcCoe Idealize.SL.Sem Idealize.ShloMosaic.StableHlo

variable {F : FTy → Type} [FloatOps F]

/-- The ids shifted left by one column, a zero column appended, with a trailing unit axis. -/
def ids3 (x1 : IVec S4x2048 32) : IVec S4x2048x1 32 :=
  broadcastInDim S4x2048x1 ![0, 1] bcast_S4x2048_S4x2048x1_0_1
    (concatenate S4x2048 1 [⟨S4x2047, extractStridedSlice S4x2047 ![0, 1] x1 slices_S4x2048_S4x2047_0_1⟩,
      ⟨S4x1, broadcastInDim S4x1 ![] bcast_S_S4x1 (constantI S_ 32 0#32)⟩] concatenates_S4x2047_S4x1_S4x2048_d1)

/-- The normalised ids: a negative one counts from the end of the row. -/
def nrm3 (x1 : IVec S4x2048 32) : IVec S4x2048x1 32 :=
  select (cmpi .slt (ids3 x1) (broadcastInDim S4x2048x1 ![] bcast_S_S4x2048x1 (constantI S_ 32 0#32)))
    (addi (ids3 x1) (broadcastInDim S4x2048x1 ![] bcast_S_S4x2048x1 (constantI S_ 32 32000#32)))
    (ids3 x1)

/-- The normalised ids as start indices, one per (batch, row). -/
def nrm4 (x1 : IVec S4x2048 32) : IVec S4x2048x1x1 32 :=
  shapeCast _ (nrm3 x1) shapeCasts_S4x2048x1_S4x2048x1x1

/-- The in-range mask: 0 ≤ id ≤ 31999, and-reduced over the unit axis. -/
def msk3 (x1 : IVec S4x2048 32) : IVec S4x2048x1 1 :=
  Host.reduce IntOp.andi
    (andi (cmpi .sge (nrm4 x1) (broadcastInDim S4x2048x1x1 ![] bcast_S_S4x2048x1x1 (constantI S_ 32 0#32)))
      (cmpi .sle (nrm4 x1) (broadcastInDim S4x2048x1x1 ![0, 1, 2, 3] bcast_S1x1x1x1_S4x2048x1x1_0_1_2_3
        (broadcastInDim S1x1x1x1 ![3] bcast_S1_S1x1x1x1_3 (constantI S1 32 31999#32)))))
    (constantI S_ 1 1#1) reducesTo_S4x2048x1x1_S4x2048x1_d3 h_S_

/-- The logits gathered along the vocabulary axis at the normalised ids. -/
def gat3 (x0 : FVec F S4x2048x32000 .f32) (x1 : IVec S4x2048 32) : FVec F S4x2048x1 .f32 :=
  Host.gather gather_S4x2048x32000_S4x2048x1x1_S4x2048x1_n_2_01_01_2_3_111 x0 (nrm4 x1)

/-- The label's logit, or the NaN word where the label is out of range. -/
def labelVal (x0 : FVec F S4x2048x32000 .f32) (x1 : IVec S4x2048 32) : FVec F S4x2048x1 .f32 :=
  select (msk3 x1) (gat3 x0 x1) (broadcastInDim S4x2048x1 ![] bcast_S_S4x2048x1 (constant S_ .f32 0x7FC00000#32))

/-- The two lists of host operations leave `labelVal` of the two arguments in the gathered buffer. -/
theorem labelVal_run (W : Valuation τ sig (Elt F)) :
    StableHlo.after (List.flatten [hostOps0 (F := F), hostOps0_1]) W (Proc.devRef .tc main_v4)
      = labelVal (W (Proc.devRef .tc main_arg0)) (W (Proc.devRef .tc main_arg1)) := by
  simp only [hostOps0, hostOps0_1, List.flatten_cons, List.flatten_nil, List.append_nil, List.cons_append, List.nil_append]
  after_results_simp
  -- the two pieces of the concatenation sit under a dependent pair, which the pass above does not enter
  repeat (first
    | rw [nullary_result] | rw [unary_result]
    | (rw [nullary_result_ne]; rotate_left; decide)
    | (rw [unary_result_ne]; rotate_left; decide))
  -- a typed reference moves contents along `ty_eq` and back: identities here
  simp only [cast_cast, cast_eq]
  rfl

/-- The block's shape facts at the kernel's 2048 rows. -/
theorem kfacts : TakeFacts 2048 :=
  ⟨bcast_S_S4x2048x1, shapeCasts_S4x2048x1_S4x2048x1x1, bcast_S_S4x2048x1x1, bcast_S1_S1x1x1x1_3,
    bcast_S1x1x1x1_S4x2048x1x1_0_1_2_3, reducesTo_S4x2048x1x1_S4x2048x1_d3, by decide, h_S_,
    gather_S4x2048x32000_S4x2048x1x1_S4x2048x1_n_2_01_01_2_3_111_wf⟩

/-- The host prefix is the block over the shifted ids. -/
theorem labelVal_eq (x0 : FVec F S4x2048x32000 .f32) (x1 : IVec S4x2048 32) :
    labelVal x0 x1 = takeAlong kfacts x0 (ids3 x1) := rfl

/-- The shifted ids at row `t < 2047` hold the id at column `t + 1`. -/
theorem ids3_apply (x1 : IVec S4x2048 32) (b : Fin 4) (t : Fin 2047) :
    ids3 x1 (ix3 b (⟨t.val, by omega⟩ : Fin 2048) (0 : Fin 1)) = x1 (ix2 b (⟨t.val + 1, by omega⟩ : Fin 2048)) := by
  unfold ids3
  refine (broadcastInDim_apply _ bcast_S4x2048_S4x2048x1_0_1 _ (ix3 b (⟨t.val, by omega⟩ : Fin 2048) (0 : Fin 1))
    (ix2 b (⟨t.val, by omega⟩ : Fin 2048)) (fun a => match a with
      | ⟨0, _⟩ => by show b.val = if (4 : Nat) = 1 then 0 else b.val; rw [if_neg (by decide)]
      | ⟨1, _⟩ => by show t.val = if (2048 : Nat) = 1 then 0 else t.val; rw [if_neg (by decide)])).trans ?_
  refine (concatenate_pair_apply_left (t := S4x2048) (s₁ := S4x2047) (s₂ := S4x1) (1 : Fin 2) _ _ concatenates_S4x2047_S4x1_S4x2048_d1
    (ix2 b (⟨t.val, by omega⟩ : Fin 2048)) rfl (ix2 b t) (fun a => match a with
      | ⟨0, _⟩ => rfl
      | ⟨1, _⟩ => rfl)).trans ?_
  exact extractStridedSlice_apply ![0, 1] x1 slices_S4x2048_S4x2047_0_1 (ix2 b t) (ix2 b (⟨t.val + 1, by omega⟩ : Fin 2048))
    (fun a => match a with
      | ⟨0, _⟩ => by show b.val = 0 + b.val; omega
      | ⟨1, _⟩ => by show t.val + 1 = 1 + t.val; omega)

theorem labelVal_apply (x0 : FVec Ideal S4x2048x32000 .f32) (x1 : IVec S4x2048 32) (b : Fin 4) (t : Fin 2047) :
    labelVal (F := Ideal) x0 x1 (ix3 b (⟨t.val, by omega⟩ : Fin 2048) (0 : Fin 1))
      = Cert.CE.pick (fun v => x0 (ix3 b (⟨t.val, by omega⟩ : Fin 2048) v)) (x1 (ix2 b (⟨t.val + 1, by omega⟩ : Fin 2048))) := by
  rw [labelVal_eq, takeAlong_apply, ids3_apply]

end Kernel

/-! ## The reference program's gather of its log-softmax array -/

section Reference
open Cert.ReferenceIdeal Cert.ReferenceIdeal.Gen Cert.ReferenceIdeal.ReadP

variable {F : FTy → Type} [FloatOps F]

/-- The block's shape facts at the reference's 2047 rows. -/
theorem rfacts : TakeFacts 2047 :=
  ⟨bcast_S_S4x2047x1, shapeCasts_S4x2047x1_S4x2047x1x1, bcast_S_S4x2047x1x1, bcast_S1_S1x1x1x1_3,
    bcast_S1x1x1x1_S4x2047x1x1_0_1_2_3, reducesTo_S4x2047x1x1_S4x2047x1_d3, by decide, h_S_,
    gather_S4x2047x32000_S4x2047x1x1_S4x2047x1_n_2_01_01_2_3_111_wf⟩

/-- The reference's gather is the block over its log-softmax array and its ids without their first column. -/
theorem val_main_v7_eq (x0 : FVec F S4x2048x32000 .f32) (x1 : IVec S4x2048 32) :
    val_main_v7 (F := F) x0 x1 = takeAlong rfacts (val_main_v5 (F := F) x0) (val_main_v6 (F := F) x1) := rfl

/-- The reference's ids at row `t` hold the id at column `t + 1`. -/
theorem val_main_v6_at (x1 : IVec S4x2048 32) (b : Fin 4) (t : Fin 2047) :
    val_main_v6 (F := F) x1 (ix3 b t (0 : Fin 1)) = x1 (ix2 b (⟨t.val + 1, by omega⟩ : Fin 2048)) := by
  rw [val_main_v6_apply, val_main_v1_apply]
  congr 1
  funext a
  match a with
  | ⟨0, _⟩ => rfl
  | ⟨1, _⟩ => exact Fin.ext (Nat.add_comm 1 t.val)

theorem ref_pick_apply (x0 : FVec Ideal Cert.ReferenceIdeal.S4x2048x32000 .f32) (x1 : IVec Cert.ReferenceIdeal.S4x2048 32)
    (b : Fin 4) (t : Fin 2047) :
    Cert.ReferenceIdeal.ReadP.val_main_v7 (F := Ideal) x0 x1 (ix3 b t (0 : Fin 1))
      = Cert.CE.pick (fun v => Cert.ReferenceIdeal.ReadP.val_main_v5 (F := Ideal) x0 (ix3 b t v))
          (x1 (ix2 b (⟨t.val + 1, by omega⟩ : Fin 2048))) := by
  rw [val_main_v7_eq, takeAlong_apply, val_main_v6_at]

end Reference

end Cert.CE.PickRead

end
-- ==== Proof.LseRef.lean ====
/-
  The reference's log-softmax stage read at an index: the row's log-softmax at that column.
-/
import proofs.«165501_j8375186227911_2_alg».proof.Proof.CeSpec
import proofs.«165501_j8375186227911_2_alg».proof.Proof.RefRead
import Idealize.ShloMosaic.Lib.ValueIdx
import Idealize.ShloMosaic.PureOps.Ideal.Laws
import Idealize.ShloMosaic.PureOps.Reduce

noncomputable section

namespace Cert.CE.LseRead

open Idealize.ShloMosaic Idealize.ShloMosaic.ValueIdx Cert.ReferenceIdeal Cert.ReferenceIdeal.Gen Cert.ReferenceIdeal.ReadP

/-- The word of `-∞` reads `-∞`. -/
theorem ofBits_negInf' : Ideal.ofBits .f32 0xFF800000#32 = ⊥ := by simp [Ideal.ofBits, Ideal.ieee]

/-- Token `t` of the first 2047, as a token of the 2048. -/
abbrev up (t : Fin 2047) : Fin 2048 := ⟨t.val, by omega⟩

theorem idx_v0 (b : Fin 4) (t : Fin 2047) (v : Fin 32000) : idx_main_v0 (ix3 b t v) = ix3 b (up t) v :=
  funext fun a => Fin.ext (by match a with | ⟨0, _⟩ => rfl | ⟨1, _⟩ => rfl | ⟨2, _⟩ => rfl)

theorem idx_v34 (b : Fin 4) (t : Fin 2047) (v : Fin 32000) :
    idx_main_call0_v3 (idx_main_call0_v4 (ix3 b t v)) = ix2 b t :=
  funext fun a => Fin.ext (by match a with | ⟨0, _⟩ => rfl | ⟨1, _⟩ => rfl)

theorem idx_v810 (b : Fin 4) (t : Fin 2047) (v : Fin 32000) :
    idx_main_call0_v8 (idx_main_call0_v10 (ix3 b t v)) = ix2 b t :=
  funext fun a => Fin.ext (by match a with | ⟨0, _⟩ => rfl | ⟨1, _⟩ => rfl)

theorem idx_v7 (b : Fin 4) (t : Fin 2047) (k : Fin 32000) : idx_main_call0_v7 (ix2 b t) k = ix3 b t k :=
  funext fun a => Fin.ext (by match a with | ⟨0, _⟩ => rfl | ⟨1, _⟩ => rfl | ⟨2, _⟩ => rfl)

/-- The reduced index `(b, t)` of a `[4, 2047, 32000]` array with column `k` put back is `(b, t, k)`. -/
theorem lift_col (h : S4x2047x32000.Reduces [2] S4x2047) (b : Fin 4) (t : Fin 2047) (k : Fin (S4x2047x32000.size 2)) :
    h.lift (ix2 b t) k = ix3 b t (⟨k.val, k.isLt⟩ : Fin 32000) := by
  funext c; apply Fin.ext
  fin_cases c <;> rfl

/-- The reference's row maximum (the maximum of the reduce from `-∞` with a `-∞` array) is the row's maximum. -/
theorem ref_rowMax (x0 : FVec Ideal S4x2048x32000 .f32) (b : Fin 4) (t : Fin 2047) :
    val_main_call0_v2 (F := Ideal) x0 (ix2 b t) = Cert.CE.rmax (fun w => x0 (ix3 b (up t) w)) := by
  have h : S4x2047x32000.Reduces [2] S4x2047 := by decide
  rw [val_main_call0_v2_apply, val_main_call0_v1_apply, val_main_call0_cst_0_apply, Ideal.maximumf_def, Ideal.ofBits_def,
    ofBits_negInf', max_eq_right bot_le]
  unfold val_main_call0_v0
  rw [Host.reduce_eq_fold_single FloatOps.maximumf _ _ reducesTo_S4x2047x32000_S4x2047_d2 h h_S_]
  have hf : (val_main_v0 (F := Ideal) x0 ∘ h.lift (ix2 b t)) = fun w : Fin 32000 => x0 (ix3 b (up t) w) :=
    funext fun w => by
      show val_main_v0 (F := Ideal) x0 (h.lift (ix2 b t) w) = _
      rw [val_main_v0_apply, lift_col, idx_v0]
      rfl
  rw [hf, val_main_call0_cst_apply, Ideal.ofBits_def, ofBits_negInf']
  rfl

/-- The shifted logit: the logit minus the row's maximum. -/
theorem ref_shift (x0 : FVec Ideal S4x2048x32000 .f32) (b : Fin 4) (t : Fin 2047) (v : Fin 32000) :
    val_main_call0_v5 (F := Ideal) x0 (ix3 b t v)
      = x0 (ix3 b (up t) v) - Cert.CE.rmax (fun w => x0 (ix3 b (up t) w)) := by
  rw [val_main_call0_v5_apply, val_main_v0_apply, val_main_call0_v4_apply, val_main_call0_v3_apply, Ideal.subf_def, idx_v0,
    idx_v34, ref_rowMax]

/-- The row's sum of shifted exponentials. -/
theorem ref_sum (x0 : FVec Ideal S4x2048x32000 .f32) (b : Fin 4) (t : Fin 2047) :
    val_main_call0_v7 (F := Ideal) x0 (ix2 b t) = Cert.CE.esum (fun w => x0 (ix3 b (up t) w)) := by
  rw [val_main_call0_v7_apply, val_main_call0_cst_1_apply, Ideal.ofBits_def, Ideal.ofBits_zero_f32, zero_add]
  unfold Cert.CE.esum
  refine Finset.sum_congr rfl fun k _ => ?_
  rw [val_main_call0_v6_apply, Ideal.hostUnary_exp_def, idx_v7, ref_shift]

theorem ref_logp_apply (x0 : FVec Ideal Cert.ReferenceIdeal.S4x2048x32000 .f32) (b : Fin 4) (t : Fin 2047) (v : Fin 32000) :
    Cert.ReferenceIdeal.ReadP.val_main_v5 (F := Ideal) x0 (ix3 b t v)
      = Cert.CE.logp (fun w => x0 (ix3 b (⟨t.val, by omega⟩ : Fin 2048) w)) v := by
  rw [val_main_v5_apply, val_main_call0_v10_apply, val_main_call0_v9_apply, val_main_call0_v8_apply, Ideal.subf_def,
    Ideal.hostUnary_log_def, idx_v810, ref_sum, ref_shift]
  rfl

end Cert.CE.LseRead

end
-- ==== Proof.CeMath.lean ====
/-
  The two forms of one token's cross-entropy agree on a row of real numbers.

  For a row of reals the maximum `rmax x` is a real `M`, every `exp (x v - M)` is a positive real, so the sum
  `esum x` is a positive real and its logarithm a real `L`.  For a label in range the claim is the identity
  `(M + L) - a = -((a - M) - L)` of real numbers; for a label out of range both sides are `+∞`
  (a real minus `-∞` on the left, the negation of `-∞` on the right).
-/
import proofs.«165501_j8375186227911_2_alg».proof.Proof.CeSpec

noncomputable section

namespace Cert.CE

open Idealize.ShloMosaic

/-- The larger of two reals, taken among the extended reals, is the larger real. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The fold of `max` from `-∞` over a finite set of reals is `-∞` on the empty set and a real otherwise. -/
theorem fold_max_coe (f : Fin 32000 → ℝ) (s : Finset (Fin 32000)) :
    (s = ∅ ∧ s.fold max (⊥ : EReal) (fun v => (f v : EReal)) = ⊥)
      ∨ ∃ M : ℝ, s.fold max (⊥ : EReal) (fun v => (f v : EReal)) = (M : EReal) := by
  induction s using Finset.induction_on with
  | empty => exact Or.inl ⟨rfl, Finset.fold_empty⟩
  | insert a s ha ih =>
    refine Or.inr ?_
    rw [Finset.fold_insert ha]
    rcases ih with ⟨_, h⟩ | ⟨M, h⟩
    · exact ⟨f a, by rw [h, max_eq_left bot_le]⟩
    · exact ⟨max (f a) M, by rw [h, max_coe]⟩

/-- The maximum of a row of reals is a real. -/
theorem rmax_coe (f : Fin 32000 → ℝ) : ∃ M : ℝ, rmax (fun v => (f v : EReal)) = (M : EReal) := by
  rcases fold_max_coe f Finset.univ with ⟨h, _⟩ | h
  · exact absurd h (Finset.univ_nonempty (α := Fin 32000)).ne_empty
  · exact h

/-- A finite sum of coerced reals is the coerced sum. -/
theorem sum_coe (g : Fin 32000 → ℝ) (s : Finset (Fin 32000)) :
    (∑ v ∈ s, ((g v : ℝ) : EReal)) = ((∑ v ∈ s, g v : ℝ) : EReal) := by
  induction s using Finset.induction_on with
  | empty => simp
  | insert a s ha ih => rw [Finset.sum_insert ha, Finset.sum_insert ha, ih, EReal.coe_add]

theorem ce_forms (x : Fin 32000 → EReal) (hx : ∀ v, ∃ r : ℝ, x v = (r : EReal)) (l : BitVec 32) :
    lse x - pick x l = -(pick (logp x) l) := by
  choose f hf using hx
  obtain rfl : x = fun v => (f v : EReal) := funext hf
  obtain ⟨M, hM⟩ := rmax_coe f
  have hes : esum (fun v => (f v : EReal)) = ((∑ v, Real.exp (f v - M) : ℝ) : EReal) := by
    unfold esum
    rw [hM, ← sum_coe]
    refine Finset.sum_congr rfl fun v _ => ?_
    rw [← EReal.coe_sub, Ideal.exp_coe]
  have hpos : 0 < ∑ v : Fin 32000, Real.exp (f v - M) :=
    Finset.sum_pos (fun i _ => Real.exp_pos _) Finset.univ_nonempty
  have hL : Ideal.log (esum (fun v => (f v : EReal)))
      = ((Real.log (∑ v, Real.exp (f v - M)) : ℝ) : EReal) := by
    rw [hes, Ideal.log_coe, if_neg (not_le.mpr hpos)]
  unfold lse pick logp
  rw [hL, hM]
  by_cases h : inRange l
  · rw [if_pos h, if_pos h]
    generalize f (kOf l) = a
    generalize Real.log (∑ v, Real.exp (f v - M)) = L
    rw [← EReal.coe_add, ← EReal.coe_sub, ← EReal.coe_sub, ← EReal.coe_sub, ← EReal.coe_neg]
    exact congrArg _ (by ring)
  · rw [if_neg h, if_neg h, ← EReal.coe_add, EReal.coe_sub_bot, EReal.neg_bot]

end Cert.CE

end
-- ==== Proof.CeBridge.lean ====
/-
  The value bridge: the per-token losses the two programs compute are one array.

  One program leaves in its loss array, at (b, t, 0), the log-sum-exp of row (b, t) of the logits minus the label's
  logit (the row's entry at the label, `-∞` for a label out of range), then drops the unit axis and the last row.
  The other negates, at (b, t), the entry at the label of the row's log-softmax. For a row of real numbers the two are
  one extended real (`ce_forms`): `lse x - pick x l = -(pick (logp x) l)`. In both the label of row `t` is the id at
  column `t + 1`.
-/
import proofs.«165501_j8375186227911_2_alg».proof.Proof.KIValue
import proofs.«165501_j8375186227911_2_alg».proof.Proof.PickRead
import proofs.«165501_j8375186227911_2_alg».proof.Proof.LseRef
import proofs.«165501_j8375186227911_2_alg».proof.Proof.CeMath
import proofs.«165501_j8375186227911_2_alg».proof.Proof.RefRead
import Idealize.ShloMosaic.Lib.Pipeline.Value
import Idealize.ShloMosaic.Lib.ValueIdx

noncomputable section

namespace Cert.CE.Bridge

open Idealize.ShloMosaic Idealize.ShloMosaic.ValueIdx
open Cert.KernelIdeal Cert.KernelIdeal.Facts₀

/-- The kernel program's per-token loss from its loss array: drop the unit axis, then the last row. -/
def ceK (y : FVec Ideal S4x2048x1 .f32) : FVec Ideal S4x2047 .f32 :=
  extractStridedSlice S4x2047 ![0, 0] (shapeCast S4x2048 y shapeCasts_S4x2048x1_S4x2048) slices_S4x2048_S4x2047_0_0

/-- Read at `(b, t)` it is the loss array at `(b, t, 0)`. -/
theorem ceK_apply (y : FVec Ideal S4x2048x1 .f32) (b : Fin 4) (t : Fin 2047) :
    ceK y (ix2 b t) = y (ix3 b (⟨t.val, by omega⟩ : Fin 2048) (0 : Fin 1)) := by
  unfold ceK
  refine (extractStridedSlice_apply ![0, 0] _ slices_S4x2048_S4x2047_0_0 (ix2 b t) (ix2 b (⟨t.val, by omega⟩ : Fin 2048))
    (fun a => match a with
      | ⟨0, _⟩ => by show b.val = 0 + b.val; omega
      | ⟨1, _⟩ => by show t.val = 0 + t.val; omega)).trans ?_
  exact shapeCast_apply y shapeCasts_S4x2048x1_S4x2048 (ix2 b (⟨t.val, by omega⟩ : Fin 2048))
    (ix3 b (⟨t.val, by omega⟩ : Fin 2048) (0 : Fin 1))
    (by rw [Shape.rowMajor_val_three, Shape.rowMajor_val_two]
        show (b.val * 2048 + t.val) * 1 + 0 = b.val * 2048 + t.val
        omega)

/-- The loss array at `(b, t, 0)`: the row's log-sum-exp minus the label array's entry there. -/
theorem lossOf_apply (X : FVec Ideal S4x2048x32000 .f32) (lab : FVec Ideal S4x2048x1 .f32) (b : Fin 4) (t : Fin 2048) :
    Cert.KernelIdeal.Val.lossOf X lab (ix3 b t (0 : Fin 1))
      = Cert.CE.lse (fun v => X (ix3 b t v)) - lab (ix3 b t (0 : Fin 1)) := rfl

/-- The reference's reshape reads `(b, t)` at `(b, t, 0)`. -/
theorem idx_v8 (b : Fin 4) (t : Fin 2047) :
    Cert.ReferenceIdeal.ReadP.idx_main_v8 (ix2 b t) = ix3 b t (0 : Fin 1) :=
  funext fun a => Fin.ext (by
    have hb : b.val < 4 := b.isLt
    have ht : t.val < 2047 := t.isLt
    match a with
    | ⟨0, _⟩ => show (b.val * 2047 + t.val) / 2047 = b.val; omega
    | ⟨1, _⟩ => show (b.val * 2047 + t.val) / 1 % 2047 = t.val; omega
    | ⟨2, _⟩ => rfl)

/-- The reference's per-token loss at `(b, t)`: minus the row's log-softmax at the label. -/
theorem ref_v9_apply (X : FVec Ideal S4x2048x32000 .f32) (ids : IVec S4x2048 32) (b : Fin 4) (t : Fin 2047) :
    Cert.ReferenceIdeal.ReadP.val_main_v9 (F := Ideal) X ids (ix2 b t)
      = -(Cert.CE.pick (Cert.CE.logp (fun w => X (ix3 b (⟨t.val, by omega⟩ : Fin 2048) w)))
          (ids (ix2 b (⟨t.val + 1, by omega⟩ : Fin 2048)))) := by
  rw [Cert.ReferenceIdeal.ReadP.val_main_v9_apply, Cert.ReferenceIdeal.ReadP.val_main_v8_apply, Ideal.hostNegf_def,
    Ideal.negf_def, idx_v8, Cert.CE.PickRead.ref_pick_apply]
  have hf : (fun v => Cert.ReferenceIdeal.ReadP.val_main_v5 (F := Ideal) X (ix3 b t v))
      = Cert.CE.logp (fun w => X (ix3 b (⟨t.val, by omega⟩ : Fin 2048) w)) :=
    funext fun v => Cert.CE.LseRead.ref_logp_apply X b t v
  rw [hf]

theorem ce_bridge (X : FVec Ideal S4x2048x32000 .f32) (ids : IVec S4x2048 32) (hX : ∀ i, ∃ r : ℝ, X i = (r : EReal)) :
    ceK (Cert.KernelIdeal.Val.lossOf X (Cert.CE.PickRead.labelVal (F := Ideal) X ids))
      = Cert.ReferenceIdeal.ReadP.val_main_v9 (F := Ideal) X ids := by
  funext i
  obtain ⟨b, t, rfl⟩ : ∃ (b : Fin 4) (t : Fin 2047), i = ix2 b t := ⟨i 0, i 1, eq_ix2 i⟩
  rw [ceK_apply, lossOf_apply, Cert.CE.PickRead.labelVal_apply, ref_v9_apply]
  exact Cert.CE.ce_forms _ (fun v => hX _) _

end Cert.CE.Bridge

end
-- ==== Proof.FiniteRead.lean ====
/-
  The precondition read back: when every entry of the logits satisfies `|x| < +∞`, every entry is a real number.

  The predicate is the conjunction over all entries (a reduction by `and` from `1`) of the comparison `|x| < +∞`, where
  `|x| = max x (-x)` on the extended reals. It holds of no infinity: `|−∞| = |+∞| = +∞`. So each entry is a real.
-/
import proofs.«165501_j8375186227911_2_alg».proof.Pre_finite_inputs
import Idealize.ShloMosaic.Lib.ReduceAll
import Idealize.ShloMosaic.Lib.ValueIdx
import Idealize.ShloMosaic.PureOps.Ideal

noncomputable section

namespace Cert.CE.FiniteRead

open Idealize.ShloMosaic

/-- The rank-zero shape has one index. -/
instance : Subsingleton Cert.Pre_finite_inputs.S_.Idx := ⟨fun a b => funext fun d => d.elim0⟩

/-- The word of `+∞` reads `+∞`. -/
theorem ofBits_posInf : Ideal.ofBits .f32 0x7F800000#32 = ⊤ := by simp [Ideal.ofBits, Ideal.ieee]

/-- An extended real whose absolute value compares below `+∞` is a real. -/
theorem real_of_abs_lt_top (y : EReal) (h : Ideal.cmp .olt (max y (-y)) ⊤ = 1#1) : ∃ r : ℝ, y = (r : EReal) := by
  induction y using EReal.rec with
  | bot => exact absurd h (by simp [Ideal.cmp])
  | top => exact absurd h (by simp [Ideal.cmp])
  | coe r => exact ⟨r, rfl⟩

theorem real_of_pre [Cert.Pre_finite_inputs.Facts] (x0 : FVec Ideal Cert.Pre_finite_inputs.S4x2048x32000 .f32) (x1 x2 x3 : IVec Cert.Pre_finite_inputs.S4x2048 32)
    (h : Cert.Pre_finite_inputs.fn (F := Ideal) x0 x1 x2 x3 = fun _ => 1#1) (i : Cert.Pre_finite_inputs.S4x2048x32000.Idx) : ∃ r : ℝ, x0 i = (r : EReal) := by
  have h0 := congrFun h ValueIdx.ix0
  dsimp only [Cert.Pre_finite_inputs.fn] at h0
  have hi := Host.reduce_andi_all _ _ _ _ _ h0 i
  have hc : Ideal.cmp .olt (max (x0 i) (-(x0 i))) (Ideal.ofBits .f32 0x7F800000#32) = 1#1 := hi
  rw [ofBits_posInf] at hc
  exact real_of_abs_lt_top (x0 i) hc

end Cert.CE.FiniteRead

end
-- ==== Proof.RefTail.lean ====
/-
  The reference program's run, cut after the per-token loss.

  The reference's operations are run in two pieces: the first 45, through the negation that yields the per-token loss
  before the mask, and the rest. `after_split` says the run of the whole list is the run of the second piece from the
  state the first leaves; `ce_run`, `mask_run` and `steps_run` read three buffers of that intermediate state as the
  stage functions of the arguments (the per-token loss, the mask as floats, the step ids).
-/
import proofs.«165501_j8375186227911_2_alg».proof.Proof.RefRun
import proofs.«165501_j8375186227911_2_alg».proof.Proof.RefRead
import Idealize.ShloMosaic.Lib.StableHlo.Run

noncomputable section

namespace Cert.ReferenceIdeal.Tl

open Cert.ReferenceIdeal Cert.ReferenceIdeal.Gen Cert.ReferenceIdeal.ValueP Idealize.ShloMosaic Idealize.ShloMosaic.TcCoe
  Idealize.SL.Sem Idealize.ShloMosaic.StableHlo

variable {F : FTy → Type} [FloatOps F]

/-- Operations 0 … 44: through the negation that yields the per-token loss before the mask. -/
abbrev opsA : List (HloOp τ sig (Elt F)) := (ops (F := F)).take 45
/-- From the product with the mask to the end. -/
abbrev opsB : List (HloOp τ sig (Elt F)) := (ops (F := F)).drop 45

/-- Two lists run one after the other are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_split (W : Valuation τ sig (Elt F)) : after (ops (F := F)) W = after opsB (after opsA W) :=
  (congrArg (fun l => after l W) (List.take_append_drop 45 (ops (F := F))).symm).trans (after_append _ _ W)

/-! ## Transports

An operation of a called function reads and writes its buffers through typed references, which move contents along the
equation between the buffer's type and the value's. Written and read back the two transports cancel; at a literal
reference either one is the identity. -/

theorem ofBuf_toBuf {Val : EltTy → Type} {T : BufTy} (x : TRef sig T) (v : T.Contents Val) : x.ofBuf (x.toBuf v) = v := by
  obtain ⟨r, rfl, _, _⟩ := x; rfl

theorem ofBuf_main_v0 (v : (⟨S4x2047x32000, .f32⟩ : BufTy).Contents (Elt F)) :
    (TRef.of (T := ⟨S4x2047x32000, .f32⟩) main_v0).ofBuf (Val := Elt F) v = v := rfl
theorem ofBuf_main_v6 (v : (⟨S4x2047x1, .i32⟩ : BufTy).Contents (Elt F)) :
    (TRef.of (T := ⟨S4x2047x1, .i32⟩) main_v6).ofBuf (Val := Elt F) v = v := rfl
theorem toBuf_main_v7 (v : (⟨S4x2047x1, .f32⟩ : BufTy).Contents (Elt F)) :
    (TRef.of (T := ⟨S4x2047x1, .f32⟩) main_v7).toBuf (Val := Elt F) v = v := rfl
theorem ofBuf_main_call1_v5 (v : (⟨S4x2047x1x1, .i32⟩ : BufTy).Contents (Elt F)) :
    (TRef.of (T := ⟨S4x2047x1x1, .i32⟩) main_call1_v5).ofBuf (Val := Elt F) v = v := rfl
theorem toBuf_main_call1_v4 (v : (⟨S4x2047x1, .i32⟩ : BufTy).Contents (Elt F)) :
    (TRef.of (T := ⟨S4x2047x1, .i32⟩) main_call1_v4).toBuf (Val := Elt F) v = v := rfl

/-! ## Three buffers after the first piece -/

/-- The per-token loss before the mask. -/
theorem ce_run (W : Valuation τ sig (Elt F)) :
    after opsA W (Proc.devRef .tc main_v9)
      = Cert.ReferenceIdeal.ReadP.val_main_v9 (F := F) (W (Proc.devRef .tc main_arg0)) (W (Proc.devRef .tc main_arg1)) := by
  simp only [opsA, ops, List.take_succ_cons, List.take_zero]
  after_results_simp
  -- with the transports gone the two sides are one term, up to unfolding the stage functions
  simp only [ofBuf_toBuf, ofBuf_main_v0, ofBuf_main_v6, toBuf_main_v7, ofBuf_main_call1_v5, toBuf_main_call1_v4]
  rfl

/-- The mask as floats. -/
theorem mask_run (W : Valuation τ sig (Elt F)) :
    after opsA W (Proc.devRef .tc main_v3) = Cert.ReferenceIdeal.ReadP.val_main_v3 (F := F) (W (Proc.devRef .tc main_arg2)) := by
  simp only [opsA, ops, List.take_succ_cons, List.take_zero]
  after_results_simp
  rfl

/-- The step ids without their first column. -/
theorem steps_run (W : Valuation τ sig (Elt F)) :
    after opsA W (Proc.devRef .tc main_v4) = Cert.ReferenceIdeal.ReadP.val_main_v4 (F := F) (W (Proc.devRef .tc main_arg3)) := by
  simp only [opsA, ops, List.take_succ_cons, List.take_zero]
  after_results_simp
  rfl

end Cert.ReferenceIdeal.Tl

end
-- ==== Proof.TailEq.lean ====
/-
  From the product of the per-token loss with the mask onwards, the two programs run the same operations: the same
  scatter-adds into per-sample, per-step sums and counts, the same means, fallbacks and final ratio. So if the two
  programs' buffer contents agree on what those operations read — the per-token loss, the mask as floats, the step ids
  without their first column — they agree on the result.
-/
import proofs.«165501_j8375186227911_2_alg».proof.Proof.Gen.KernelIdeal.Launch
import proofs.«165501_j8375186227911_2_alg».proof.Proof.RefRun
import Idealize.ShloMosaic.Lib.StableHlo.Run
import Idealize.ShloMosaic.PureOps.Ideal

set_option maxRecDepth 16384

noncomputable section

namespace Cert.TailEq

open Idealize.ShloMosaic Idealize.ShloMosaic.TcCoe Idealize.SL.Sem Idealize.ShloMosaic.StableHlo

/-- The kernel program's operations after the region. -/
abbrev kT : List (HloOp Cert.KernelIdeal.τ Cert.KernelIdeal.sig (Elt Ideal)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5]
/-- Its first four: the loss array without its unit axis, then without its last row; the mask without its first column, then as
    floats. -/
abbrev kA : List (HloOp Cert.KernelIdeal.τ Cert.KernelIdeal.sig (Elt Ideal)) := kT.take 4
/-- The rest: from the product of the two on. -/
abbrev kB : List (HloOp Cert.KernelIdeal.τ Cert.KernelIdeal.sig (Elt Ideal)) := kT.drop 4
/-- The reference's operations from the same product on. -/
abbrev rB : List (HloOp Cert.ReferenceIdeal.τ Cert.ReferenceIdeal.sig (Elt Ideal)) := (Cert.ReferenceIdeal.ValueP.ops (F := Ideal)).drop 45

set_option maxHeartbeats 16000000 in
theorem tail_agree (Wk : Valuation Cert.KernelIdeal.τ Cert.KernelIdeal.sig (Elt Ideal))
    (Wr : Valuation Cert.ReferenceIdeal.τ Cert.ReferenceIdeal.sig (Elt Ideal))
    (h7 : (Wk (Proc.devRef .tc Cert.KernelIdeal.main_v7) : Cert.KernelIdeal.S4x2047.Idx → EReal) = Wr (Proc.devRef .tc Cert.ReferenceIdeal.main_v9))
    (h9 : (Wk (Proc.devRef .tc Cert.KernelIdeal.main_v9) : Cert.KernelIdeal.S4x2047.Idx → EReal) = Wr (Proc.devRef .tc Cert.ReferenceIdeal.main_v3))
    (h3 : (extractStridedSlice Cert.KernelIdeal.S4x2047 ![0, 1] (Wk (Proc.devRef .tc Cert.KernelIdeal.main_arg3)) Cert.KernelIdeal.Facts₀.slices_S4x2048_S4x2047_0_1
        : Cert.KernelIdeal.S4x2047.Idx → BitVec 32) = Wr (Proc.devRef .tc Cert.ReferenceIdeal.main_v4)) :
    (after kB Wk (Proc.devRef .tc Cert.KernelIdeal.main_v73) : Cert.KernelIdeal.S_.Idx → EReal)
      = after rB Wr (Proc.devRef .tc Cert.ReferenceIdeal.main_v72) := by
  simp only [kB, kT, rB, Cert.ReferenceIdeal.ValueP.ops, Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5,
    List.flatten_cons, List.flatten_nil, List.append_nil, List.cons_append, List.nil_append, List.drop_succ_cons, List.drop_zero]
  generalize hcatK : ((fun a b => concatenate Cert.KernelIdeal.S4x2047x2 2 [⟨Cert.KernelIdeal.S4x2047x1, a⟩, ⟨Cert.KernelIdeal.S4x2047x1, b⟩] Cert.KernelIdeal.Facts₀.concatenates_S4x2047x1_S4x2047x1_S4x2047x2_d2) : (⟨Cert.KernelIdeal.S4x2047x1, .i32⟩ : BufTy).Contents (Elt Ideal) → (⟨Cert.KernelIdeal.S4x2047x1, .i32⟩ : BufTy).Contents (Elt Ideal) → (⟨Cert.KernelIdeal.S4x2047x2, .i32⟩ : BufTy).Contents (Elt Ideal)) = catK
  generalize hcatR : ((fun a b => concatenate Cert.ReferenceIdeal.S4x2047x2 2 [⟨Cert.ReferenceIdeal.S4x2047x1, a⟩, ⟨Cert.ReferenceIdeal.S4x2047x1, b⟩] Cert.ReferenceIdeal.Facts₀.concatenates_S4x2047x1_S4x2047x1_S4x2047x2_d2) : (⟨Cert.ReferenceIdeal.S4x2047x1, .i32⟩ : BufTy).Contents (Elt Ideal) → (⟨Cert.ReferenceIdeal.S4x2047x1, .i32⟩ : BufTy).Contents (Elt Ideal) → (⟨Cert.ReferenceIdeal.S4x2047x2, .i32⟩ : BufTy).Contents (Elt Ideal)) = catR
  after_results_simp
  subst hcatK
  subst hcatR
  rw [h7, h9, h3]
  rfl

end Cert.TailEq

end
-- ==== Proof.Glue.lean ====
/-
  The two programs' results are one extended real.

  The kernel program's result is its later operations' value of the region-exit contents: the loss array at
  `lossOf` of the logits and the label logits (KIValue), every other buffer as the region found it. Its first four later
  operations turn the loss array into the per-token loss without the last row, and the mask into floats; from there on
  the two programs run the same operations (TailEq). The reference's first 45 operations produce the same three
  things: its per-token loss is the negated log-softmax picked at the label, which for finite logits is the
  kernel's log-sum-exp minus the label's logit (CeBridge); the mask and the step ids are the same slices of the same
  arguments.
-/
import proofs.«165501_j8375186227911_2_alg».proof.Proof.KIValue
import proofs.«165501_j8375186227911_2_alg».proof.Proof.PickRead
import proofs.«165501_j8375186227911_2_alg».proof.Proof.CeBridge
import proofs.«165501_j8375186227911_2_alg».proof.Proof.FiniteRead
import proofs.«165501_j8375186227911_2_alg».proof.Proof.RefTail
import proofs.«165501_j8375186227911_2_alg».proof.Proof.TailEq
import proofs.«165501_j8375186227911_2_alg».proof.Proof.Gen.Pre_finite_inputs
import proofs.«165501_j8375186227911_2_alg».proof.Defs

set_option maxRecDepth 16384

noncomputable section

namespace Cert.Glue

open Idealize.ShloMosaic Idealize.ShloMosaic.TcCoe Idealize.SL.Sem Idealize.ShloMosaic.StableHlo
open Cert.KernelIdeal Cert.KernelIdeal.Gen Cert.KernelIdeal.Fr Cert.KernelIdeal.Val Cert.TailEq
open Idealize.ShloMosaic.Pipeline (Dat)

/-- Operations run one list after the other are their concatenation run as one. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The kernel program's later operations: its first four, then the rest. -/
theorem kT_split (Wk : Valuation τ sig (Elt Ideal)) : after kT Wk = after kB (after kA Wk) := by
  rw [← after_append, List.take_append_drop]

/-- After the first four: the per-token loss without the last row, from the loss array; -/
theorem kA_v7 (Wk : Valuation τ sig (Elt Ideal)) :
    (after kA Wk (Proc.devRef .tc main_v7) : S4x2047.Idx → EReal) = Cert.CE.Bridge.ceK (Wk (Proc.devRef .tc main_v5)) := by
  simp only [kA, kT, hostOps1, List.flatten_cons, List.cons_append, List.take_succ_cons, List.take_zero]
  after_results_simp <;> rfl

/-- the mask without its first column, as floats; -/
theorem kA_v9 (Wk : Valuation τ sig (Elt Ideal)) :
    (after kA Wk (Proc.devRef .tc main_v9) : S4x2047.Idx → EReal)
      = sitofp (F := Ideal) .f32 (extractStridedSlice S4x2047 ![0, 1] (Wk (Proc.devRef .tc main_arg2)) Facts₀.slices_S4x2048_S4x2047_0_1) := by
  simp only [kA, kT, hostOps1, List.flatten_cons, List.cons_append, List.take_succ_cons, List.take_zero]
  after_results_simp <;> rfl

/-- and the step ids untouched. -/
theorem kA_arg3 (Wk : Valuation τ sig (Elt Ideal)) :
    after kA Wk (Proc.devRef .tc main_arg3) = Wk (Proc.devRef .tc main_arg3) := by
  simp only [kA, kT, hostOps1, List.flatten_cons, List.cons_append, List.take_succ_cons, List.take_zero]
  after_results_simp

variable (m : (ℓ : Loc nD τ sig) → Buf (Elt Ideal) ℓ)

/-- The label's own logit, as the region finds it: the host gather of the logits at the shifted labels. -/
theorem V_main_v4 (c : Dev nD) :
    V m c main_v4 = Cert.CE.PickRead.labelVal (F := Ideal) (m ((c : Thread nD τ).loc main_arg0)) (m ((c : Thread nD τ).loc main_arg1)) :=
  Cert.CE.PickRead.labelVal_run (F := Ideal) (fun b => m (c, b))

/-- The contents the later operations start from. -/
abbrev Wx (c : Dev nD) : Valuation τ sig (Elt Ideal) :=
  Pipeline.withArrays spec0 c (V0 m c) fun w => (dats m 0 c).arrAt w cfg0.N

theorem Wx_v5 (c : Dev nD) :
    Wx m c (Proc.devRef .tc main_v5)
      = lossOf (m ((c : Thread nD τ).loc main_arg0))
          (Cert.CE.PickRead.labelVal (F := Ideal) (m ((c : Thread nD τ).loc main_arg0)) (m ((c : Thread nD τ).loc main_arg1))) := by
  refine (Pipeline.withArrays_arr spec0 launch0.win.arr_inj c _ _ 2).trans ((final m c).trans ?_)
  rw [V_main_arg0, V_main_v4]

theorem Wx_arg2 (c : Dev nD) : Wx m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem Wx_arg3 (c : Dev nD) : Wx m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

/-- THE VALUE: for finite logits, from memories agreeing on the arguments, the kernel program's result is the
    reference's. -/
theorem result_eq (m' : (ℓ : Loc Cert.ReferenceIdeal.nD Cert.ReferenceIdeal.τ Cert.ReferenceIdeal.sig) → Buf (Elt Ideal) ℓ) (c : Dev nD)
    (hX : ∀ i, ∃ r : ℝ, (m ((c : Thread nD τ).loc main_arg0) : S4x2048x32000.Idx → EReal) i = (r : EReal))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.ValueP.res_main_v72 (F := Ideal) m' c
      = Pipeline.afterTail₀ cfgs (dats m) 0 (V0 m) sfx c main_v73 := by
  unfold Cert.ReferenceIdeal.ValueP.res_main_v72 Pipeline.afterTail₀
  show after (Cert.ReferenceIdeal.ValueP.ops (F := Ideal)) (launchContents m' c) (Proc.devRef .tc Cert.ReferenceIdeal.main_v72)
    = after kT (Wx m c) (Proc.devRef .tc main_v73)
  rw [kT_split, Cert.ReferenceIdeal.Tl.after_split]
  refine (tail_agree (after kA (Wx m c)) (after Cert.ReferenceIdeal.Tl.opsA (launchContents m' c)) ?_ ?_ ?_).symm
  · rw [kA_v7, Wx_v5, Cert.ReferenceIdeal.Tl.ce_run]
    show _ = Cert.ReferenceIdeal.ReadP.val_main_v9 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
    rw [h0, h1]
    exact Cert.CE.Bridge.ce_bridge _ _ hX
  · rw [kA_v9, Wx_arg2, Cert.ReferenceIdeal.Tl.mask_run]
    show _ = Cert.ReferenceIdeal.ReadP.val_main_v3 (F := Ideal)
      (m' ((c.tc : Thread Cert.ReferenceIdeal.nD Cert.ReferenceIdeal.τ).loc Cert.ReferenceIdeal.main_arg2))
    rw [h2]
    rfl
  · rw [kA_arg3, Wx_arg3, Cert.ReferenceIdeal.Tl.steps_run]
    show _ = Cert.ReferenceIdeal.ReadP.val_main_v4 (F := Ideal)
      (m' ((c.tc : Thread Cert.ReferenceIdeal.nD Cert.ReferenceIdeal.τ).loc Cert.ReferenceIdeal.main_arg3))
    rw [h3]
    rfl

end Cert.Glue

end
-- ==== Proof.lean ====
/-
  The certificate of a fused cross-entropy kernel against its jnp reference.

  The kernel program gathers each token's own label logit on the host, computes in ONE pipelined region — a 4 × 16 grid
  of [128, 32000] logits blocks — every token's log-sum-exp minus that label logit, and finishes on the host: mask, per-step
  segment sums and counts, per-step means, fallback and the final ratio. The reference computes the log-softmax of the
  logits without their last row, picks the label's entry, negates it, and runs the same host tail.

  * The three frames. Each kernel program runs to the end with its four arguments as launched: the region's body
    loads its two input blocks, overwrites its output block, keeps nothing between grid points, and no host operation
    writes an argument or an array the region stages (KFrame / KIFrame, one text at the two instances). The reference is
    host operations only: its run is its operations' fold.
  * The idealization rewrote nothing, so `preserves` is `True`.
  * The value. For finite logits the row maximum M and the log of the shifted exponentials' sum L are real numbers,
    so the kernel's (M + L) − x_label and the reference's −((x_label − M) − L) are one real number; for a label out of range
    the gather's fill reads −∞ on both sides and both are +∞. From there the two host tails are the same operations
    (Glue: `result_eq`).
-/
import proofs.«165501_j8375186227911_2_alg».proof.Defs
import proofs.«165501_j8375186227911_2_alg».proof.Proof.Gen.Kernel
import proofs.«165501_j8375186227911_2_alg».proof.Proof.Gen.KernelIdeal
import proofs.«165501_j8375186227911_2_alg».proof.Proof.Gen.ReferenceIdeal
import proofs.«165501_j8375186227911_2_alg».proof.Proof.Gen.Pre_finite_inputs
import proofs.«165501_j8375186227911_2_alg».proof.Proof.KFrame
import proofs.«165501_j8375186227911_2_alg».proof.Proof.KIFrame
import proofs.«165501_j8375186227911_2_alg».proof.Proof.RefRun
import proofs.«165501_j8375186227911_2_alg».proof.Proof.Glue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The idealized kernel program's run, with its result buffer named: the later operations' value of the region-exit
    contents. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v73)
            = Pipeline.afterTail₀ Cert.KernelIdeal.cfgs (Cert.KernelIdeal.Fr.dats m) 0 (Cert.KernelIdeal.Fr.V0 m) Cert.KernelIdeal.Fr.sfx c Cert.KernelIdeal.main_v73
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨(h c).2 Cert.KernelIdeal.main_v73 (Pipeline.mem_restRefs_of Cert.KernelIdeal.main_v73 (by decide) (by decide)),
      ((h c).1 0).trans ((((Cert.KernelIdeal.Fr.dats m) 0 c).arrAt_in 0 rfl _).trans ((Cert.KernelIdeal.Fr.A_eq m c 0).trans (Cert.KernelIdeal.Fr.V_main_arg0 m c))),
      ((h c).2 Cert.KernelIdeal.main_arg1 (Pipeline.mem_restRefs_of Cert.KernelIdeal.main_arg1 (by decide) (by decide))).trans (Cert.KernelIdeal.Fr.W_main_arg1 m (Cert.KernelIdeal.Fr.dats m) c),
      ((h c).2 Cert.KernelIdeal.main_arg2 (Pipeline.mem_restRefs_of Cert.KernelIdeal.main_arg2 (by decide) (by decide))).trans (Cert.KernelIdeal.Fr.W_main_arg2 m (Cert.KernelIdeal.Fr.dats m) c),
      ((h c).2 Cert.KernelIdeal.main_arg3 (Pipeline.mem_restRefs_of Cert.KernelIdeal.main_arg3 (by decide) (by decide))).trans (Cert.KernelIdeal.Fr.W_main_arg3 m (Cert.KernelIdeal.Fr.dats m) c)⟩)
    (Cert.KernelIdeal.Fr.run_main (F := Ideal) m ρ)

/-- At the ideal instance, for finite logits, from memories agreeing on the arguments, the two programs end with one
    result and unchanged arguments. -/
theorem algebraic : Cert.algebraic_KernelIdeal_ReferenceIdeal := by
  intro m ρ m' ρ' hpre hagree
  refine ⟨fun c => Pipeline.afterTail₀ Cert.KernelIdeal.cfgs (Cert.KernelIdeal.Fr.dats m) 0 (Cert.KernelIdeal.Fr.V0 m) Cert.KernelIdeal.Fr.sfx c Cert.KernelIdeal.main_v73,
    kernel_run m ρ, ?_⟩
  refine (θ_run Cert.ReferenceIdeal.defs _ _).mono (fun _ h c => ⟨(h c).1.trans ?_, (h c).2⟩)
    (Cert.ReferenceIdeal.ValueP.run (F := Ideal) m' ρ')
  exact Cert.Glue.result_eq m m' c (fun i => Cert.CE.FiniteRead.real_of_pre _ _ _ _ (hpre c) i)
    (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
